-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_v48 main_v49 main_v50

def fn_part1 {F : FTy → Type} [FloatOps F] (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : FVec F S1600000x64 .f32) (main_arg2 : IVec S2x1600000 32) (main_arg3 : IVec S100000 32) (main_arg4 : FVec F S64x128 .f32) (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S1600000x64 : Shape := ⟨2, ![1600000, 64]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S6400x64 : Shape := ⟨2, ![6400, 64]⟩
abbrev S6400x128 : Shape := ⟨2, ![6400, 128]⟩
abbrev S128x64 : Shape := ⟨2, ![128, 64]⟩
abbrev S1x128 : Shape := ⟨2, ![1, 128]⟩
abbrev S100000x128 : Shape := ⟨2, ![100000, 128]⟩
abbrev S20x1x128 : Shape := ⟨3, ![20, 1, 128]⟩
abbrev S5000x64 : Shape := ⟨2, ![5000, 64]⟩
abbrev S5000x128 : Shape := ⟨2, ![5000, 128]⟩
abbrev S1x1x128 : Shape := ⟨3, ![1, 1, 128]⟩
abbrev S20x128 : Shape := ⟨2, ![20, 128]⟩

abbrev nBuf : Space → Nat
  | .hbm => 58
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S2x1600000, .i32⟩
  | .hbm, ⟨3, _⟩ => ⟨S100000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x64, .bf16⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .bf16⟩
  | .hbm, ⟨28, _⟩ => ⟨S1x64, .f32⟩
  | .hbm, ⟨29, _⟩ => ⟨S1x64, .f32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S1x128, .f32⟩
  | .hbm, ⟨36, _⟩ => ⟨S1x128, .f32⟩
  | .hbm, ⟨37, _⟩ => ⟨S100000x128, .f32⟩
  | .hbm, ⟨38, _⟩ => ⟨S20x1x128, .f32⟩
  | .hbm, ⟨39, _⟩ => ⟨S20x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S20x1x128, .f32⟩
  | .hbm, ⟨47, _⟩ => ⟨S20x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .local _ .vmem, ⟨0, _⟩ => ⟨S6400x64, .bf16⟩
  | .local _ .vmem, ⟨1, _⟩ => ⟨S6400x64, .bf16⟩
  | .local _ .vmem, ⟨2, _⟩ => ⟨S6400x64, .f32⟩
  | .local _ .vmem, ⟨3, _⟩ => ⟨S6400x64, .f32⟩
  | .local _ .vmem, ⟨4, _⟩ => ⟨S64x128, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S6400x64, .f32⟩
  | .local _ .vmem, ⟨9, _⟩ => ⟨S6400x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x1x128, .f32⟩
  | .local _ .vmem, ⟨21, _⟩ => ⟨S1x1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x1x128, .f32⟩
  | .local _ .vmem, ⟨26, _⟩ => ⟨S1x1x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  concatenates_S6400x64_S6400x64_S6400x128_d1 : Shape.Concatenates [S6400x64, S6400x64] S6400x128 1
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S20x1x128_S20x128 : S20x1x128.ShapeCasts S20x128
  reducesTo_S20x128_S128_d0 : S20x128.ReducesTo [0] S128
  h_S_ : 0 < S_.numel
  bcast_S_S128 : S_.BroadcastsInDim S128 (![] : Fin 0 → Fin S128.rank)
  shapeCasts_S5000x128_S5000x128 : S5000x128.ShapeCasts S5000x128
  gather_S100000x64_S1600000x1_S1600000x64_1_0_n_n_0_1_164_wf : GatherDims.WF S100000x64 S1600000x1 S1600000x64 [1] [0] [] [0] [] 1 ![1, 64]
  dot_S6400x128_S128x64_S6400x64_1_0_0_1_n_n_wf : DotDims.WF S6400x128 S128x64 S6400x64 [1] [0] [0] [1] [] []
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .bf16 = 32 ∨ (Rect.block (s := S1600000x64) S6400x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x64.size a ≤ S1600000x64.size a
  hwx0_6 : ∀ i : grid0.Coords, EltTy.bits .f32 = 32 ∨ (Rect.block (s := S1600000x64) S6400x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S20x1x128.size a
  hwx1_7 : ∀ i : grid1.Coords, EltTy.bits .f32 = 32 ∨ (Rect.block (s := S20x1x128) S1x1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S20x1x128.size a
  hwx2_2 : ∀ i : grid2.Coords, EltTy.bits .f32 = 32 ∨ (Rect.block (s := S20x1x128) S1x1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S6400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S1x1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v20_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S1x64 : Shape := ⟨2, ![1, 64]⟩
abbrev S100000x128 : Shape := ⟨2, ![100000, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S2x1600000, .i32⟩
  | .hbm, ⟨3, _⟩ => ⟨S100000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x128, .f32⟩
  | .hbm, ⟨28, _⟩ => ⟨S128x64, .f32⟩
  | .hbm, ⟨29, _⟩ => ⟨S1600000x64, .f32⟩
  | .hbm, ⟨30, _⟩ => ⟨S1x64, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S64x64, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_cst : Ref sig .tc := ⟨.hbm, 41, rfl⟩
abbrev main_call1_v0 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_1 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_c_3 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_cst_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_cst_1 : Ref sig .tc := ⟨.hbm, 79, rfl⟩
abbrev main_call3_v8 : Ref sig .tc := ⟨.hbm, 80, rfl⟩
abbrev main_call3_cst_2 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_cst_3 : Ref sig .tc := ⟨.hbm, 85, rfl⟩
abbrev main_call3_v12 : Ref sig .tc := ⟨.hbm, 86, rfl⟩
abbrev main_call3_cst_4 : Ref sig .tc := ⟨.hbm, 87, rfl⟩
abbrev main_call3_call0_v0 : Ref sig .tc := ⟨.hbm, 88, rfl⟩
abbrev main_call3_call0_v1 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_4 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  transposes_S64x128_S128x64_1_0 : S64x128.Transposes [1, 0] S128x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  transposes_S64x64_S64x64_1_0 : S64x64.Transposes [1, 0] S64x64
  bcast_S_S100000x64 : S_.BroadcastsInDim S100000x64 (![] : Fin 0 → Fin S100000x64.rank)
  concatenates_S100000x64_S100000x64_S100000x128_d1 : Shape.Concatenates [S100000x64, S100000x64] S100000x128 1
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run with its result named.

  The program is four pipelined regions among stretches of host operations. The generated frame module folds the
  buffer contents through those eight segments from the launch memory (`Gen.W0` … `Gen.W8`) and proves, from the
  library's theorem on a chain of host stretches and regions, that every weakly fair execution terminates with the
  argument arrays as launched. The same theorem, read at one more buffer, names the result: after the run the result
  array holds the last boundary's contents `Gen.W8` at the result's reference, and the arguments are unchanged.
-/
import proofs.«140201_j79508434583745_2_alg».proof.Proof.Gen.KernelIdeal.Frame

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run_named : θ_run defs (onTc (τ := τ) (main (F := F))) ⟨m, fun _ => 0, ρ⟩ (fun r => ∀ c : Dev nD,
      r.2.mem ((c.tc : Thread nD τ).loc main_v35) = W8 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v35 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Named

end
-- ==== Proof.Spec.lean ====
/-
  The mathematics both programs compute, stated once over plain coordinate functions into the extended reals.

  A message-passing layer followed by batch normalisation over the node axis:
  * per edge, the gathered source row beside the edge's own features goes through two affine layers, each followed
    by `max · 0` (`msg`);
  * per node, the node's features beside its aggregated messages go through an affine layer, `max · 0`, a second
    affine layer, and the layer's input is added back (`upd`);
  * every column is centred by its mean over the 100000 nodes and scaled by the inverse square root of its (biased)
    variance plus a small constant, then scaled and shifted per column (`bn`).
  The gather and the scatter-sum that connect these stages are the same host operations in both programs and never
  appear here.

  The only algebra needed between the two programs is that a sum over 100000 rows is the sum over 20 blocks of the sums
  over each block's 5000 rows (`sum_blocks`): the extended reals are a commutative additive monoid, so no finiteness
  is needed.
-/
import Idealize.ShloMosaic.PureOps.Ideal
import Mathlib.Algebra.BigOperators.Fin

noncomputable section

namespace Cert.MsgNet

open Idealize.ShloMosaic

/-- Two 64-column matrices side by side: columns 0–63 from `x`, columns 64–127 from `y`. -/
def cat64 {n : Nat} (x y : Fin n → Fin 64 → EReal) : Fin n → Fin 128 → EReal :=
  fun r l => if h : l.val < 64 then x r ⟨l.val, h⟩ else y r ⟨l.val - 64, by omega⟩

/-- An affine layer: entry `(r, k)` is row `r` of `z` against row `k` of the weight matrix, plus the bias at `k`. -/
def lin {n K M : Nat} (z : Fin n → Fin K → EReal) (W : Fin M → Fin K → EReal) (b : Fin M → EReal) :
    Fin n → Fin M → EReal :=
  fun r k => (∑ l : Fin K, z r l * W k l) + b k

/-- The positive part, entry by entry. -/
def relu {n M : Nat} (z : Fin n → Fin M → EReal) : Fin n → Fin M → EReal := fun r k => max (z r k) 0

/-- The message of every edge: two affine layers with positive parts over the gathered row beside the edge features. -/
def msg {n : Nat} (xs ef : Fin n → Fin 64 → EReal) (W0 : Fin 64 → Fin 128 → EReal) (b0 : Fin 64 → EReal)
    (W1 : Fin 64 → Fin 64 → EReal) (b1 : Fin 64 → EReal) : Fin n → Fin 64 → EReal :=
  relu (lin (relu (lin (cat64 xs ef) W0 b0)) W1 b1)

/-- The node update before normalisation: two affine layers (a positive part between them) over the node's
    features beside its aggregated messages, plus that input itself. -/
def upd {n : Nat} (x agg : Fin n → Fin 64 → EReal) (Wu0 : Fin 128 → Fin 128 → EReal) (bu0 : Fin 128 → EReal)
    (Wuo : Fin 128 → Fin 128 → EReal) (buo : Fin 128 → EReal) : Fin n → Fin 128 → EReal :=
  fun r j => lin (relu (lin (cat64 x agg) Wu0 bu0)) Wuo buo r j + cat64 x agg r j

/-- The number of nodes as both programs spell it: the f32 literal 100000.0. -/
def nNodes : EReal := Ideal.ofBits .f32 0x47C35000#32
/-- The variance offset as both programs spell it: the f32 literal nearest 1e-5. -/
def eps : EReal := Ideal.ofBits .f32 0x3727C5AC#32

/-- The column means over the node axis. -/
def mean (o : Fin 100000 → Fin 128 → EReal) : Fin 128 → EReal :=
  fun j => Ideal.div (∑ r : Fin 100000, o r j) nNodes

/-- The (biased) column variances over the node axis: the mean of the squared deviations from the column mean. -/
def var (o : Fin 100000 → Fin 128 → EReal) : Fin 128 → EReal :=
  fun j => Ideal.div (∑ r : Fin 100000, (o r j - mean o j) * (o r j - mean o j)) nNodes

/-- Batch normalisation of the columns with a per-column scale and shift. -/
def bn (o : Fin 100000 → Fin 128 → EReal) (gamma beta : Fin 128 → EReal) : Fin 100000 → Fin 128 → EReal :=
  fun r j => (o r j - mean o j) * Ideal.rsqrt (var o j + eps) * gamma j + beta j

/-- Row `p` of block `t` when 100000 rows are cut into 20 blocks of 5000. -/
def blockRow (t : Fin 20) (p : Fin 5000) : Fin 100000 := ⟨5000 * t.val + p.val, by omega⟩

/-- A sum over the 100000 rows is the sum, over the 20 blocks, of each block's sum over its 5000 rows. -/
theorem sum_blocks {M : Type*} [AddCommMonoid M] (f : Fin 100000 → M) :
    ∑ r : Fin 100000, f r = ∑ t : Fin 20, ∑ p : Fin 5000, f (blockRow t p) := by
  rw [← Finset.sum_product', Finset.univ_product_univ]
  refine (Fintype.sum_equiv (finProdFinEquiv (m := 20) (n := 5000)) _ _ (fun tp => ?_)).symm
  refine congrArg f (Fin.ext ?_)
  simp only [blockRow, finProdFinEquiv_apply_val]
  omega

end Cert.MsgNet

end
-- ==== Proof.KBlockStats.lean ====
/-
  The kernel program's host arithmetic between its regions, read index by index at the extended reals.

  A region leaves, for each of the 20 blocks of 5000 rows, one row of 128 column sums. The host drops the unit axis,
  adds the 20 rows from zero, and divides every column by the node count; a 128-vector is then given a leading unit
  axis so that the next region can read it as a one-row matrix. Because a sum over the 100000 rows is the sum over the
  blocks of each block's sum, this average of block sums is the column mean when the block sums are sums of the rows,
  and the biased column variance when they are sums of the squared deviations from that mean.
-/
import proofs.«140201_j79508434583745_2_alg».proof.Proof.Gen.KernelIdeal
import proofs.«140201_j79508434583745_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.KernelIdeal.BlockStats

open Cert.KernelIdeal Cert.KernelIdeal.Facts₀ Cert.KernelIdeal.Facts
open Idealize.ShloMosaic Idealize.ShloMosaic.ValueIdx

/-- The per-block rows with the unit axis dropped, added over the 20 blocks from zero, every column divided by the
    node count. -/
def blockAvg (P : FVec Ideal S20x1x128 .f32) : FVec Ideal S128 .f32 :=
  Host.divf
    (Host.reduceAdd (shapeCast S20x128 P shapeCasts_S20x1x128_S20x128) (constant (F := Ideal) S_ .f32 0x00000000#32)
      reducesTo_S20x128_S128_d0 h_S_)
    (broadcastInDim S128 ![] bcast_S_S128 (constant (F := Ideal) S_ .f32 0x47C35000#32))

/-- A 128-vector as a one-row matrix. -/
def asRow (v : FVec Ideal S128 .f32) : FVec Ideal S1x128 .f32 := shapeCast S1x128 v shapeCasts_S128_S1x128

/-- The one row of `asRow v` is `v`. -/
theorem asRow_apply (v : FVec Ideal S128 .f32) (q : Fin 128) : asRow v (ix2 0 q) = v (ix1 q) :=
  shapeCast_a_1a_apply v shapeCasts_S128_S1x128 0 q

/-- With the unit axis dropped, entry `(t, q)` is entry `(t, 0, q)`: both sit at row-major position `128 t + q`. -/
theorem dropUnit_apply (P : FVec Ideal S20x1x128 .f32) (t : Fin 20) (q : Fin 128) :
    shapeCast S20x128 P shapeCasts_S20x1x128_S20x128 (ix2 t q) = P (ix3 t 0 q) :=
  shapeCast_apply P shapeCasts_S20x1x128_S20x128 _ _ (by
    rw [Shape.rowMajor_val_three, Shape.rowMajor_val_two]
    show (t.val * 1 + 0) * 128 + q.val = t.val * 128 + q.val
    omega)

/-- A host sum over the block axis from the zero word: at column `q`, the sum over the 20 blocks. -/
theorem hostSum_apply (x : FVec Ideal S20x128 .f32) (q : Fin 128) :
    Host.reduceAdd x (constant (F := Ideal) S_ .f32 0x00000000#32) reducesTo_S20x128_S128_d0 h_S_ (ix1 q)
      = ∑ t : Fin 20, x (ix2 t q) := by
  have h' : S20x128.ReducesTo [0] S128 := reducesTo_S20x128_S128_d0
  have h : S20x128.Reduces [0] S128 := ⟨h'.1, Nat.one_pos, h'.2⟩
  rw [hostReduceAdd_apply, Ideal.hostReduceAdd_single h' h, constant_apply, Ideal.ofBits_zero_f32, zero_add]
  refine Finset.sum_congr rfl fun k _ => ?_
  refine congrArg x (funext fun a => Fin.ext ?_)
  match a with
  | ⟨0, _⟩ => rfl
  | ⟨1, _⟩ => rfl

/-- The average of the block rows at column `q`: the sum of the 20 block entries over the node count. -/
theorem blockAvg_apply (P : FVec Ideal S20x1x128 .f32) (q : Fin 128) :
    blockAvg P (ix1 q) = Ideal.div (∑ t : Fin 20, P (ix3 t 0 q)) Cert.MsgNet.nNodes := by
  unfold blockAvg
  rw [hostDivf_apply, hostSum_apply, broadcastInDim_scalar_apply, constant_apply]
  refine congrArg (fun z => Ideal.div z Cert.MsgNet.nNodes) (Finset.sum_congr rfl fun t _ => ?_)
  exact dropUnit_apply P t q

/-- When every block entry is the sum of its block's 5000 rows of `U`, the average of the block rows is the column
    mean of `U`. -/
theorem mean_of_blocks (U : Fin 100000 → Fin 128 → EReal) (P : FVec Ideal S20x1x128 .f32)
    (hP : ∀ (t : Fin 20) (q : Fin 128), P (ix3 t 0 q) = ∑ p : Fin 5000, U (Cert.MsgNet.blockRow t p) q) (q : Fin 128) :
    blockAvg P (ix1 q) = Cert.MsgNet.mean U q := by
  rw [blockAvg_apply]
  unfold Cert.MsgNet.mean
  refine congrArg (fun z => Ideal.div z Cert.MsgNet.nNodes) ?_
  rw [Cert.MsgNet.sum_blocks (fun r => U r q)]
  exact Finset.sum_congr rfl fun t _ => hP t q

/-- When every block entry is the sum, over its block's 5000 rows, of the squared deviations of `U` from its column
    mean, the average of the block rows is the biased column variance of `U`. -/
theorem var_of_blocks (U : Fin 100000 → Fin 128 → EReal) (Q : FVec Ideal S20x1x128 .f32) (mu : Fin 128 → EReal)
    (hmu : ∀ q, mu q = Cert.MsgNet.mean U q)
    (hQ : ∀ (t : Fin 20) (q : Fin 128), Q (ix3 t 0 q)
      = ∑ p : Fin 5000, (U (Cert.MsgNet.blockRow t p) q - mu q) * (U (Cert.MsgNet.blockRow t p) q - mu q))
    (q : Fin 128) : blockAvg Q (ix1 q) = Cert.MsgNet.var U q := by
  rw [blockAvg_apply]
  unfold Cert.MsgNet.var
  refine congrArg (fun z => Ideal.div z Cert.MsgNet.nNodes) ?_
  rw [Cert.MsgNet.sum_blocks (fun r => (U r q - Cert.MsgNet.mean U q) * (U r q - Cert.MsgNet.mean U q))]
  refine Finset.sum_congr rfl fun t _ => ?_
  rw [hQ t q, hmu q]

end Cert.KernelIdeal.BlockStats

end
-- ==== Proof.RefStages.lean ====
/-
  The reference program's computation as pure functions of its argument arrays, one definition per stage, spelt with
  the host operations the program itself applies (its own dimension records), read at the extended reals.

  Stages: the two index columns cut from the edge list (`srcCol`, `dstCol`; a negative source index is wrapped by the
  node count), the gathered source rows (`gathered`), the edge messages (`messages`: two affine layers, each followed by
  a maximum with zero), the scatter-sum into node buckets (`aggregated`), the node update with its residual
  (`nodeIn`, `updated`), the column mean and the biased column variance over the node axis (`colMean`, `colVar`; the
  variance divides by the node count minus a zero correction, guarded by a test that this divisor is positive), and the
  normalisation with a per-column scale and shift (`normalized`). `result` composes them.
-/
import proofs.«140201_j79508434583745_2_alg».proof.ReferenceIdeal
import proofs.«140201_j79508434583745_2_alg».proof.Proof.Gen.ReferenceIdeal
import Idealize.ShloMosaic.PureOps.Ideal

noncomputable section

namespace Cert.ReferenceIdeal.Stages

open Cert.ReferenceIdeal Cert.ReferenceIdeal.Facts₀ Cert.ReferenceIdeal.Facts Idealize.ShloMosaic

/-- Row 0 of the edge list (the source node of every edge) as a column, a negative entry wrapped by the node count. -/
def srcRow (ei : IVec S2x1600000 32) : IVec S1600000 32 :=
  shapeCast S1600000 (extractStridedSlice S1x1600000 ![0, 0] ei slices_S2x1600000_S1x1600000_0_0) shapeCasts_S1x1600000_S1600000

def srcCol (ei : IVec S2x1600000 32) : IVec S1600000x1 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32))) (srcRow ei))

/-- Row 1 of the edge list (the destination node of every edge) as a column. -/
def dstCol (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- The source node's feature row of every edge. -/
def gathered (x : FVec Ideal S100000x64 .f32) (ei : IVec S2x1600000 32) : FVec Ideal S1600000x64 .f32 :=
  Host.gather gather_S100000x64_S1600000x1_S1600000x64_1_0_n_n_0_1_164 x (srcCol ei)

/-- The maximum with zero over an edge-indexed matrix. -/
def reluE (a : FVec Ideal S1600000x64 .f32) : FVec Ideal S1600000x64 .f32 :=
  maximumf a (broadcastInDim S1600000x64 ![] bcast_S_S1600000x64 (constant (F := Ideal) S_ .f32 0x00000000#32))

/-- The maximum with zero over a node-indexed matrix. -/
def reluN (a : FVec Ideal S100000x128 .f32) : FVec Ideal S100000x128 .f32 :=
  maximumf a (broadcastInDim S100000x128 ![] bcast_S_S100000x128 (constant (F := Ideal) S_ .f32 0x00000000#32))

/-- A 64-vector as a row repeated over the edges. -/
def rowsE (b : FVec Ideal S64 .f32) : FVec Ideal S1600000x64 .f32 :=
  broadcastInDim S1600000x64 ![0, 1] bcast_S1x64_S1600000x64_0_1 (broadcastInDim S1x64 ![1] bcast_S64_S1x64_1 b)

/-- A 128-vector as a row repeated over the nodes. -/
def rowsN (b : FVec Ideal S128 .f32) : FVec Ideal S100000x128 .f32 :=
  broadcastInDim S100000x128 ![0, 1] bcast_S1x128_S100000x128_0_1 (broadcastInDim S1x128 ![1] bcast_S128_S1x128_1 b)

/-- The edge messages: the gathered rows beside the edge features through two affine layers, each followed by a
    maximum with zero. -/
def messages (xs ef : FVec Ideal S1600000x64 .f32) (Wm0 : FVec Ideal S64x128 .f32) (bm0 : FVec Ideal S64 .f32)
    (Wm1 : FVec Ideal S64x64 .f32) (bm1 : FVec Ideal S64 .f32) : FVec Ideal S1600000x64 .f32 :=
  reluE (addf (Host.dotGeneral dot_S1600000x64_S64x64_S1600000x64_1_0_0_1_n_n none
      (reluE (addf (Host.dotGeneral dot_S1600000x128_S128x64_S1600000x64_1_0_0_1_n_n none
          (concatenate S1600000x128 1 [⟨S1600000x64, xs⟩, ⟨S1600000x64, ef⟩] concatenates_S1600000x64_S1600000x64_S1600000x128_d1)
          (transpose S128x64 [1, 0] Wm0 transposes_S64x128_S128x64_1_0))
        (rowsE bm0)))
      (transpose S64x64 [1, 0] Wm1 transposes_S64x64_S64x64_1_0))
    (rowsE bm1))

/-- The messages summed into their destination nodes' buckets, from zero. -/
def aggregated (dst : IVec S1600000x1 32) (y : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) dst y

/-- A node's features beside its aggregated messages. -/
def nodeIn (x agg : FVec Ideal S100000x64 .f32) : FVec Ideal S100000x128 .f32 :=
  concatenate S100000x128 1 [⟨S100000x64, x⟩, ⟨S100000x64, agg⟩] concatenates_S100000x64_S100000x64_S100000x128_d1

/-- The node update: an affine layer, a maximum with zero, a second affine layer, plus the layer's input. -/
def updated (z : FVec Ideal S100000x128 .f32) (Wu0 : FVec Ideal S128x128 .f32) (bu0 : FVec Ideal S128 .f32)
    (Wuo : FVec Ideal S128x128 .f32) (buo : FVec Ideal S128 .f32) : FVec Ideal S100000x128 .f32 :=
  addf (addf (Host.dotGeneral dot_S100000x128_S128x128_S100000x128_1_0_0_1_n_n none
      (reluN (addf (Host.dotGeneral dot_S100000x128_S128x128_S100000x128_1_0_0_1_n_n none z
          (transpose S128x128 [1, 0] Wu0 transposes_S128x128_S128x128_1_0))
        (rowsN bu0)))
      (transpose S128x128 [1, 0] Wuo transposes_S128x128_S128x128_1_0))
    (rowsN buo)) z

/-- The column sums over the node axis, from zero. -/
def colSum (o : FVec Ideal S100000x128 .f32) : FVec Ideal S128 .f32 :=
  Host.reduceAdd o (constant (F := Ideal) S_ .f32 0x00000000#32) reducesTo_S100000x128_S128_d0 h_S_

/-- The column means: the column sums over the node count. -/
def colMean (o : FVec Ideal S100000x128 .f32) : FVec Ideal S128 .f32 :=
  Host.divf (colSum o) (broadcastInDim S128 ![] bcast_S_S128 (constant (F := Ideal) S_ .f32 0x47C35000#32))

/-- The variance's divisor: the node count minus the (zero) correction, as a float. -/
def varDivisor : FVec Ideal S_ .f32 :=
  subf (constant (F := Ideal) S_ .f32 0x47C35000#32) (sitofp .f32 (constantI S_ 32 0#32))

/-- The squared deviations from the column means (the means computed as a one-row matrix and repeated over the nodes). -/
def sqDev (o : FVec Ideal S100000x128 .f32) : FVec Ideal S100000x128 .f32 :=
  mulf
    (subf o (broadcastInDim S100000x128 ![0, 1] bcast_S1x128_S100000x128_0_1
      (Host.divf (broadcastInDim S1x128 ![1] bcast_S128_S1x128_1 (colSum o))
        (broadcastInDim S1x128 ![] bcast_S_S1x128 (constant (F := Ideal) S_ .f32 0x47C35000#32)))))
    (subf o (broadcastInDim S100000x128 ![0, 1] bcast_S1x128_S100000x128_0_1
      (Host.divf (broadcastInDim S1x128 ![1] bcast_S128_S1x128_1 (colSum o))
        (broadcastInDim S1x128 ![] bcast_S_S1x128 (constant (F := Ideal) S_ .f32 0x47C35000#32)))))

/-- The biased column variances: the summed squared deviations over the divisor where the divisor is positive, a
    not-a-number pattern otherwise. -/
def colVar (o : FVec Ideal S100000x128 .f32) : FVec Ideal S128 .f32 :=
  select (broadcastInDim S128 ![] bcast_S_S128 (cmpf .ogt varDivisor (constant (F := Ideal) S_ .f32 0x00000000#32)))
    (Host.divf (Host.reduceAdd (sqDev o) (constant (F := Ideal) S_ .f32 0x00000000#32) reducesTo_S100000x128_S128_d0 h_S_)
      (broadcastInDim S128 ![] bcast_S_S128 varDivisor))
    (broadcastInDim S128 ![] bcast_S_S128 (constant (F := Ideal) S_ .f32 0x7FC00000#32))

/-- The columns centred, scaled by the inverse root of variance plus the offset, then scaled and shifted per column. -/
def normalized (o : FVec Ideal S100000x128 .f32) (gamma beta : FVec Ideal S128 .f32) : FVec Ideal S100000x128 .f32 :=
  addf (mulf (mulf (subf o (rowsN (colMean o)))
      (rowsN (Host.rsqrt (addf (colVar o) (broadcastInDim S128 ![] bcast_S_S128 (constant (F := Ideal) S_ .f32 0x3727C5AC#32))))))
    (rowsN gamma)) (rowsN beta)

/-- The reference's result as one function of its argument arrays (the batch-index argument is never read). -/
def result (x : FVec Ideal S100000x64 .f32) (ef : FVec Ideal S1600000x64 .f32) (ei : IVec S2x1600000 32)
    (Wm0 : FVec Ideal S64x128 .f32) (bm0 : FVec Ideal S64 .f32) (Wm1 : FVec Ideal S64x64 .f32) (bm1 : FVec Ideal S64 .f32)
    (Wu0 : FVec Ideal S128x128 .f32) (bu0 : FVec Ideal S128 .f32) (Wuo : FVec Ideal S128x128 .f32) (buo : FVec Ideal S128 .f32)
    (gamma beta : FVec Ideal S128 .f32) : FVec Ideal S100000x128 .f32 :=
  normalized (updated (nodeIn x (aggregated (dstCol ei) (messages (gathered x ei) ef Wm0 bm0 Wm1 bm1))) Wu0 bu0 Wuo buo) gamma beta

end Cert.ReferenceIdeal.Stages

end
-- ==== Proof.HostGlue.lean ====
/-
  The irregular host operations the two programs share.

  Both programs cut the same two index columns from the edge list (the source column with a negative entry wrapped by
  the node count), gather the source node's feature row of every edge, and sum the edge messages into their destination
  nodes' buckets starting from zero. Each program spells these operations over its own copy of the shapes and dimension
  records, which are the same literals; the kernel program gathers after a change of float format, which is the identity
  on extended reals. So the kernel program's spelling and the reference's stages are the same functions of the feature
  matrix, the edge list and the messages.
-/
import proofs.«140201_j79508434583745_2_alg».proof.Proof.Gen.KernelIdeal
import proofs.«140201_j79508434583745_2_alg».proof.Proof.RefStages
import Idealize.ShloMosaic.Lib.ValueIdx

noncomputable section

namespace Cert.HostGlue

open Idealize.ShloMosaic

/-- Row 0 of the edge list as a vector, in the kernel program's spelling. -/
def srcRowK (ei : IVec Cert.KernelIdeal.S2x1600000 32) : IVec Cert.KernelIdeal.S1600000 32 :=
  shapeCast Cert.KernelIdeal.S1600000
    (extractStridedSlice Cert.KernelIdeal.S1x1600000 ![0, 0] ei Cert.KernelIdeal.Facts₀.slices_S2x1600000_S1x1600000_0_0)
    Cert.KernelIdeal.Facts₀.shapeCasts_S1x1600000_S1600000

/-- The source column (a negative entry wrapped by the node count), in the kernel program's spelling. -/
def srcColK (ei : IVec Cert.KernelIdeal.S2x1600000 32) : IVec Cert.KernelIdeal.S1600000x1 32 :=
  broadcastInDim Cert.KernelIdeal.S1600000x1 ![0] Cert.KernelIdeal.Facts₀.bcast_S1600000_S1600000x1_0
    (select
      (cmpi .slt (srcRowK ei)
        (broadcastInDim Cert.KernelIdeal.S1600000 ![] Cert.KernelIdeal.Facts₀.bcast_S_S1600000
          (constantI Cert.KernelIdeal.S_ 32 0#32)))
      (addi (srcRowK ei)
        (broadcastInDim Cert.KernelIdeal.S1600000 ![] Cert.KernelIdeal.Facts₀.bcast_S_S1600000
          (constantI Cert.KernelIdeal.S_ 32 100000#32)))
      (srcRowK ei))

/-- The destination column, in the kernel program's spelling. -/
def dstColK (ei : IVec Cert.KernelIdeal.S2x1600000 32) : IVec Cert.KernelIdeal.S1600000x1 32 :=
  broadcastInDim Cert.KernelIdeal.S1600000x1 ![0] Cert.KernelIdeal.Facts₀.bcast_S1600000_S1600000x1_0
    (shapeCast Cert.KernelIdeal.S1600000
      (extractStridedSlice Cert.KernelIdeal.S1x1600000 ![1, 0] ei Cert.KernelIdeal.Facts₀.slices_S2x1600000_S1x1600000_1_0)
      Cert.KernelIdeal.Facts₀.shapeCasts_S1x1600000_S1600000)

/-- The source node's feature row of every edge, gathered after the change of float format, in the kernel program's
    spelling. -/
def gatheredK (x : FVec Ideal Cert.KernelIdeal.S100000x64 .f32) (ei : IVec Cert.KernelIdeal.S2x1600000 32) :
    FVec Ideal Cert.KernelIdeal.S1600000x64 .bf16 :=
  Host.gather Cert.KernelIdeal.gather_S100000x64_S1600000x1_S1600000x64_1_0_n_n_0_1_164
    (truncf .bf16 x Cert.KernelIdeal.Facts₀.bitsLt_bf16_f32) (srcColK ei)

/-- The messages summed into their destination nodes' buckets, from zero, in the kernel program's spelling. -/
def aggregatedK (ei : IVec Cert.KernelIdeal.S2x1600000 32) (y : FVec Ideal Cert.KernelIdeal.S1600000x64 .f32) :
    FVec Ideal Cert.KernelIdeal.S100000x64 .f32 :=
  Host.scatterAdd Cert.KernelIdeal.scatter_S100000x64_S1600000x1_S1600000x64_1_0_0_1
    (broadcastInDim Cert.KernelIdeal.S100000x64 ![] Cert.KernelIdeal.Facts₀.bcast_S_S100000x64
      (constant (F := Ideal) Cert.KernelIdeal.S_ .f32 0x00000000#32))
    (dstColK ei) y

/-- The two programs cut the same source column. -/
theorem srcCol_same (ei : IVec Cert.KernelIdeal.S2x1600000 32) : srcColK ei = Cert.ReferenceIdeal.Stages.srcCol ei := rfl

/-- The two programs cut the same destination column. -/
theorem dstCol_same (ei : IVec Cert.KernelIdeal.S2x1600000 32) : dstColK ei = Cert.ReferenceIdeal.Stages.dstCol ei := rfl

/-- The two programs gather the same rows: the records are the same literals, the index columns the same, and the
    change of float format is the identity on extended reals. -/
theorem gathered_same (x : FVec Ideal Cert.KernelIdeal.S100000x64 .f32) (ei : IVec Cert.KernelIdeal.S2x1600000 32) :
    gatheredK x ei = Cert.ReferenceIdeal.Stages.gathered x ei := rfl

/-- The two programs sum the messages into the same buckets. -/
theorem aggregated_same (ei : IVec Cert.KernelIdeal.S2x1600000 32) (y : FVec Ideal Cert.KernelIdeal.S1600000x64 .f32) :
    aggregatedK ei y = Cert.ReferenceIdeal.Stages.aggregated (Cert.ReferenceIdeal.Stages.dstCol ei) y := rfl

end Cert.HostGlue

end
-- ==== Proof.KChain.lean ====
/-
  The idealized kernel program's buffer contents, boundary by boundary.

  The program is: host operations (the two index columns, the gathered source rows, two bias rows), a region computing
  the edge messages, host operations (the scatter-sum into node buckets, two bias rows), a region computing the node
  update and its per-block column sums, host operations (the blocks' sums added and divided by the node count: the
  column means), a region computing per-block sums of squared deviations, host operations (the column variances, four
  rows), and a region that normalises. This module reads, through that chain, what every region's input arrays hold
  when the region is entered, in terms of the launch memory and of the arrays the earlier regions left.
-/
import proofs.«140201_j79508434583745_2_alg».proof.Proof.Gen.KernelIdeal.Frame
import proofs.«140201_j79508434583745_2_alg».proof.Proof.Spec
import proofs.«140201_j79508434583745_2_alg».proof.Proof.KBlockStats
import proofs.«140201_j79508434583745_2_alg».proof.Proof.HostGlue
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## Region 0's inputs, at its entry -/

theorem V1_arg1 : V1 m ρ c main_arg1 = m ((c : Thread nD τ).loc main_arg1) := by
  show StableHlo.after hostOps0 (W0 m ρ c) (Proc.devRef .tc main_arg1) = _
  after_results
theorem V1_arg4 : V1 m ρ c main_arg4 = m ((c : Thread nD τ).loc main_arg4) := by
  show StableHlo.after hostOps0 (W0 m ρ c) (Proc.devRef .tc main_arg4) = _
  after_results
theorem V1_arg6 : V1 m ρ c main_arg6 = m ((c : Thread nD τ).loc main_arg6) := by
  show StableHlo.after hostOps0 (W0 m ρ c) (Proc.devRef .tc main_arg6) = _
  after_results
/-- The first bias as a one-row matrix reads, in its row, the bias vector. -/
theorem V1_v12_apply (k : Fin 64) : V1 m ρ c main_v12 (ix2 0 k) = m ((c : Thread nD τ).loc main_arg5) (ix1 k) := by
  have e : V1 m ρ c main_v12 = shapeCast S1x64 (m ((c : Thread nD τ).loc main_arg5)) shapeCasts_S64_S1x64 := by
    show StableHlo.after hostOps0 (W0 m ρ c) (Proc.devRef .tc main_v12) = _
    after_results
    rfl
  rw [e]; exact shapeCast_a_1a_apply _ _ 0 k
theorem V1_v13_apply (k : Fin 64) : V1 m ρ c main_v13 (ix2 0 k) = m ((c : Thread nD τ).loc main_arg7) (ix1 k) := by
  have e : V1 m ρ c main_v13 = shapeCast S1x64 (m ((c : Thread nD τ).loc main_arg7)) shapeCasts_S64_S1x64 := by
    show StableHlo.after hostOps0 (W0 m ρ c) (Proc.devRef .tc main_v13) = _
    after_results
    rfl
  rw [e]; exact shapeCast_a_1a_apply _ _ 0 k

/-! ## What region 0 leaves untouched, and region 1's inputs at its entry -/

/-- A launch array that region 0 does not stage and no earlier host operation writes is still the launch array
    after region 0. -/
theorem W2_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
theorem W2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
theorem W2_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results
theorem W2_arg11 : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results

theorem V3_arg0 : V3 m ρ c main_arg0 = m ((c : Thread nD τ).loc main_arg0) := by
  show StableHlo.after hostOps1 (W2 m ρ c) (Proc.devRef .tc main_arg0) = _
  after_results
  exact W2_arg0 m ρ c
theorem V3_arg8 : V3 m ρ c main_arg8 = m ((c : Thread nD τ).loc main_arg8) := by
  show StableHlo.after hostOps1 (W2 m ρ c) (Proc.devRef .tc main_arg8) = _
  after_results
  exact W2_arg8 m ρ c
theorem V3_arg10 : V3 m ρ c main_arg10 = m ((c : Thread nD τ).loc main_arg10) := by
  show StableHlo.after hostOps1 (W2 m ρ c) (Proc.devRef .tc main_arg10) = _
  after_results
  exact W2_arg10 m ρ c
theorem V3_v18_apply (k : Fin 128) : V3 m ρ c main_v18 (ix2 0 k) = m ((c : Thread nD τ).loc main_arg9) (ix1 k) := by
  have e : V3 m ρ c main_v18 = shapeCast S1x128 (W2 m ρ c (Proc.devRef .tc main_arg9)) shapeCasts_S128_S1x128 := by
    show StableHlo.after hostOps1 (W2 m ρ c) (Proc.devRef .tc main_v18) = _
    after_results
    rfl
  rw [e, W2_arg9]; exact shapeCast_a_1a_apply _ _ 0 k
theorem V3_v19_apply (k : Fin 128) : V3 m ρ c main_v19 (ix2 0 k) = m ((c : Thread nD τ).loc main_arg11) (ix1 k) := by
  have e : V3 m ρ c main_v19 = shapeCast S1x128 (W2 m ρ c (Proc.devRef .tc main_arg11)) shapeCasts_S128_S1x128 := by
    show StableHlo.after hostOps1 (W2 m ρ c) (Proc.devRef .tc main_v19) = _
    after_results
    rfl
  rw [e, W2_arg11]; exact shapeCast_a_1a_apply _ _ 0 k
/-- The destination column of the edge list, read after region 0 (which does not touch it). -/
theorem W2_v3 : W2 m ρ c (Proc.devRef .tc main_v3)
    = shapeCast S1600000 (extractStridedSlice S1x1600000 ![1, 0] (m ((c : Thread nD τ).loc main_arg2)) slices_S2x1600000_S1x1600000_1_0) shapeCasts_S1x1600000_S1600000 := by
  rw [W2_of_ne m ρ c main_v3 (by decide)]
  show StableHlo.after hostOps0 (W0 m ρ c) (Proc.devRef .tc main_v3) = _
  after_results
  rfl
/-- The aggregated messages: the scatter-sum, from zero, of region 0's output into the destination column. -/
theorem V3_v17 : V3 m ρ c main_v17 = HostGlue.aggregatedK (m ((c : Thread nD τ).loc main_arg2)) (W2 m ρ c (Proc.devRef .tc main_v14)) := by
  have e : V3 m ρ c main_v17
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (W2 m ρ c (Proc.devRef .tc main_v3)))
          (W2 m ρ c (Proc.devRef .tc main_v14)) := by
    show StableHlo.after hostOps1 (W2 m ρ c) (Proc.devRef .tc main_v17) = _
    after_results
  rw [e, W2_v3]; rfl
/-- The gathered source rows, at region 0's entry. -/
theorem V1_v11 : V1 m ρ c main_v11 = HostGlue.gatheredK (m ((c : Thread nD τ).loc main_arg0)) (m ((c : Thread nD τ).loc main_arg2)) := by
  show StableHlo.after hostOps0 (W0 m ρ c) (Proc.devRef .tc main_v11) = _
  after_results
  rfl

/-! ## Region 2's inputs at its entry -/

theorem V5_v20_0 : V5 m ρ c main_v20_0 = W4 m ρ c (Proc.devRef .tc main_v20_0) := by
  show StableHlo.after hostOps2 (W4 m ρ c) (Proc.devRef .tc main_v20_0) = _
  after_results
theorem W5_v24 : W5 m ρ c (Proc.devRef .tc main_v24) = BlockStats.blockAvg (W4 m ρ c (Proc.devRef .tc main_v20_1)) := by
  show StableHlo.after hostOps2 (W4 m ρ c) (Proc.devRef .tc main_v24) = _
  after_results
  rfl
theorem V5_v25 : V5 m ρ c main_v25 = BlockStats.asRow (BlockStats.blockAvg (W4 m ρ c (Proc.devRef .tc main_v20_1))) := by
  show StableHlo.after hostOps2 (W4 m ρ c) (Proc.devRef .tc main_v25) = _
  after_results
  rfl

/-! ## Region 3's inputs at its entry -/

/-- Region 2 only reads the node update's output. -/
theorem W6_v20_0 : W6 m ρ c (Proc.devRef .tc main_v20_0) = W4 m ρ c (Proc.devRef .tc main_v20_0) :=
  ((W6_arr m ρ c 0).trans (((dat2 (V5 m ρ) c).arrAt_in 0 rfl _).trans (A_eq2 (V5 m ρ) c 0))).trans (V5_v20_0 m ρ c)
theorem V7_v20_0 : V7 m ρ c main_v20_0 = W4 m ρ c (Proc.devRef .tc main_v20_0) := by
  show StableHlo.after hostOps3 (W6 m ρ c) (Proc.devRef .tc main_v20_0) = _
  after_results
  exact W6_v20_0 m ρ c
theorem W6_v24 : W6 m ρ c (Proc.devRef .tc main_v24) = BlockStats.blockAvg (W4 m ρ c (Proc.devRef .tc main_v20_1)) := by
  rw [W6_of_ne m ρ c main_v24 (by decide)]; exact W5_v24 m ρ c
theorem V7_v31 : V7 m ρ c main_v31 = BlockStats.asRow (BlockStats.blockAvg (W4 m ρ c (Proc.devRef .tc main_v20_1))) := by
  have e : V7 m ρ c main_v31 = shapeCast S1x128 (W6 m ρ c (Proc.devRef .tc main_v24)) shapeCasts_S128_S1x128 := by
    show StableHlo.after hostOps3 (W6 m ρ c) (Proc.devRef .tc main_v31) = _
    after_results
    rfl
  rw [e, W6_v24]; rfl
theorem V7_v32 : V7 m ρ c main_v32 = BlockStats.asRow (BlockStats.blockAvg (W6 m ρ c (Proc.devRef .tc main_v26))) := by
  show StableHlo.after hostOps3 (W6 m ρ c) (Proc.devRef .tc main_v32) = _
  after_results
  rfl
/-- A launch array that nothing writes, read before the last region: the last region and the last host stretch do not
    touch it either, and at the end it is the launch array. -/
theorem W6_arg12 : W6 m ρ c (Proc.devRef .tc main_arg12) = m ((c : Thread nD τ).loc main_arg12) := by
  have h7 : W7 m ρ c (Proc.devRef .tc main_arg12) = W6 m ρ c (Proc.devRef .tc main_arg12) := by
    show StableHlo.after hostOps3 (W6 m ρ c) (Proc.devRef .tc main_arg12) = _
    after_results
  rw [← h7, ← W8_of_ne m ρ c main_arg12 (by decide)]; exact W8_main_arg12 m ρ c
theorem W6_arg13 : W6 m ρ c (Proc.devRef .tc main_arg13) = m ((c : Thread nD τ).loc main_arg13) := by
  have h7 : W7 m ρ c (Proc.devRef .tc main_arg13) = W6 m ρ c (Proc.devRef .tc main_arg13) := by
    show StableHlo.after hostOps3 (W6 m ρ c) (Proc.devRef .tc main_arg13) = _
    after_results
  rw [← h7, ← W8_of_ne m ρ c main_arg13 (by decide)]; exact W8_main_arg13 m ρ c
theorem V7_v33_apply (k : Fin 128) : V7 m ρ c main_v33 (ix2 0 k) = m ((c : Thread nD τ).loc main_arg12) (ix1 k) := by
  have e : V7 m ρ c main_v33 = shapeCast S1x128 (W6 m ρ c (Proc.devRef .tc main_arg12)) shapeCasts_S128_S1x128 := by
    show StableHlo.after hostOps3 (W6 m ρ c) (Proc.devRef .tc main_v33) = _
    after_results
    rfl
  rw [e, W6_arg12]; exact shapeCast_a_1a_apply _ _ 0 k
theorem V7_v34_apply (k : Fin 128) : V7 m ρ c main_v34 (ix2 0 k) = m ((c : Thread nD τ).loc main_arg13) (ix1 k) := by
  have e : V7 m ρ c main_v34 = shapeCast S1x128 (W6 m ρ c (Proc.devRef .tc main_arg13)) shapeCasts_S128_S1x128 := by
    show StableHlo.after hostOps3 (W6 m ρ c) (Proc.devRef .tc main_v34) = _
    after_results
    rfl
  rw [e, W6_arg13]; exact shapeCast_a_1a_apply _ _ 0 k

/-! ## The regions' values, and the result

What each region leaves in its output arrays is proved region by region elsewhere, each at the region's own entry
contents; here those five statements are taken together (`Regions`) and carried to the result. -/

/-- Per block of 5000 rows and per column, the sum of the squared deviations of `o` from the row `mu`. -/
abbrev sqsumG (o : FVec Ideal S100000x128 .f32) (mu : FVec Ideal S1x128 .f32) : FVec Ideal S20x1x128 .f32 := fun i =>
  ∑ p : Fin 5000, (o (ix2 (MsgNet.blockRow (i 0) p) (i 2)) - mu (ix2 0 (i 2))) * (o (ix2 (MsgNet.blockRow (i 0) p) (i 2)) - mu (ix2 0 (i 2)))

/-- Entry by entry: centred by the row `mu`, scaled by the inverse root of the row `va` plus the offset, then by the
    row `ga`, shifted by the row `be`. -/
abbrev scaleG (o : FVec Ideal S100000x128 .f32) (mu va ga be : FVec Ideal S1x128 .f32) : FVec Ideal S100000x128 .f32 := fun i =>
  (o (ix2 (i 0) (i 1)) - mu (ix2 0 (i 1))) * Ideal.rsqrt (va (ix2 0 (i 1)) + MsgNet.eps) * ga (ix2 0 (i 1)) + be (ix2 0 (i 1))

theorem sqsumG_apply (o : FVec Ideal S100000x128 .f32) (mu : FVec Ideal S1x128 .f32) (U : Fin 100000 → Fin 128 → EReal)
    (mu' : Fin 128 → EReal) (ho : ∀ r q, o (ix2 r q) = U r q) (hmu : ∀ q, mu (ix2 0 q) = mu' q) (t : Fin 20) (q : Fin 128) :
    sqsumG o mu (ix3 t 0 q) = ∑ p : Fin 5000, (U (MsgNet.blockRow t p) q - mu' q) * (U (MsgNet.blockRow t p) q - mu' q) := by
  show ∑ p : Fin 5000, (o (ix2 (MsgNet.blockRow t p) q) - mu (ix2 0 q)) * (o (ix2 (MsgNet.blockRow t p) q) - mu (ix2 0 q)) = _
  exact Finset.sum_congr rfl fun p _ => by rw [ho, hmu]

theorem scaleG_eq (o : FVec Ideal S100000x128 .f32) (mu va ga be : FVec Ideal S1x128 .f32) (U : Fin 100000 → Fin 128 → EReal)
    (gam bet : Fin 128 → EReal) (ho : ∀ r q, o (ix2 r q) = U r q) (hmu : ∀ q, mu (ix2 0 q) = MsgNet.mean U q)
    (hva : ∀ q, va (ix2 0 q) = MsgNet.var U q) (hga : ∀ q, ga (ix2 0 q) = gam q) (hbe : ∀ q, be (ix2 0 q) = bet q) :
    scaleG o mu va ga be = fun i => MsgNet.bn U gam bet (i 0) (i 1) := by
  funext i
  obtain ⟨r, q, rfl⟩ : ∃ (r : Fin 100000) (q : Fin 128), i = ix2 r q := ⟨i 0, i 1, eq_ix2 i⟩
  show (o (ix2 r q) - mu (ix2 0 q)) * Ideal.rsqrt (va (ix2 0 q) + MsgNet.eps) * ga (ix2 0 q) + be (ix2 0 q) = _
  rw [ho, hmu, hva, hga, hbe]
  rfl

/-- The node update before normalisation, as a function of the launch arrays and the aggregated messages. -/
def U : Fin 100000 → Fin 128 → EReal :=
  MsgNet.upd (fun r l => (m ((c : Thread nD τ).loc main_arg0)) (ix2 r l)) (fun r l => V3 m ρ c main_v17 (ix2 r l))
    (fun k l => (m ((c : Thread nD τ).loc main_arg8)) (ix2 k l)) (fun k => (m ((c : Thread nD τ).loc main_arg9)) (ix1 k))
    (fun k l => (m ((c : Thread nD τ).loc main_arg10)) (ix2 k l)) (fun k => (m ((c : Thread nD τ).loc main_arg11)) (ix1 k))

/-- The same, over region 1's input arrays as the region finds them. -/
def Uin : Fin 100000 → Fin 128 → EReal :=
  MsgNet.upd (fun r l => V3 m ρ c main_arg0 (ix2 r l)) (fun r l => V3 m ρ c main_v17 (ix2 r l))
    (fun k l => V3 m ρ c main_arg8 (ix2 k l)) (fun k => V3 m ρ c main_v18 (ix2 0 k))
    (fun k l => V3 m ρ c main_arg10 (ix2 k l)) (fun k => V3 m ρ c main_v19 (ix2 0 k))

theorem Uin_eq : Uin m ρ c = U m ρ c := by
  unfold Uin U
  rw [V3_arg0, V3_arg8, V3_arg10,
    show (fun k : Fin 128 => V3 m ρ c main_v18 (ix2 0 k)) = fun k => (m ((c : Thread nD τ).loc main_arg9)) (ix1 k) from funext fun k => V3_v18_apply m ρ c k,
    show (fun k : Fin 128 => V3 m ρ c main_v19 (ix2 0 k)) = fun k => (m ((c : Thread nD τ).loc main_arg11)) (ix1 k) from funext fun k => V3_v19_apply m ρ c k]

/-- What the four regions leave in their output arrays, each over its own input arrays at its entry. -/
structure Regions : Prop where
  edge : W2 m ρ c (Proc.devRef .tc main_v14) = fun i =>
    MsgNet.msg (fun e l => V1 m ρ c main_v11 (ix2 e l)) (fun e l => V1 m ρ c main_arg1 (ix2 e l))
      (fun k l => V1 m ρ c main_arg4 (ix2 k l)) (fun k => V1 m ρ c main_v12 (ix2 0 k))
      (fun k l => V1 m ρ c main_arg6 (ix2 k l)) (fun k => V1 m ρ c main_v13 (ix2 0 k)) (i 0) (i 1)
  node : W4 m ρ c (Proc.devRef .tc main_v20_0) = fun i => Uin m ρ c (i 0) (i 1)
  nodesum : W4 m ρ c (Proc.devRef .tc main_v20_1) = fun i => ∑ p : Fin 5000, Uin m ρ c (MsgNet.blockRow (i 0) p) (i 2)
  sqsum : W6 m ρ c (Proc.devRef .tc main_v26) = sqsumG (V5 m ρ c main_v20_0) (V5 m ρ c main_v25)
  scale : W8 m ρ c (Proc.devRef .tc main_v35)
    = scaleG (V7 m ρ c main_v20_0) (V7 m ρ c main_v31) (V7 m ρ c main_v32) (V7 m ρ c main_v33) (V7 m ρ c main_v34)

variable {m ρ c}

/-- The aggregated messages are the scatter-sum of the edge messages of the launch arrays. -/
theorem agg_eq (H : Regions m ρ c) : V3 m ρ c main_v17 = HostGlue.aggregatedK (m ((c : Thread nD τ).loc main_arg2)) (fun i =>
    MsgNet.msg (fun e l => HostGlue.gatheredK (m ((c : Thread nD τ).loc main_arg0)) (m ((c : Thread nD τ).loc main_arg2)) (ix2 e l)) (fun e l => (m ((c : Thread nD τ).loc main_arg1)) (ix2 e l))
      (fun k l => (m ((c : Thread nD τ).loc main_arg4)) (ix2 k l)) (fun k => (m ((c : Thread nD τ).loc main_arg5)) (ix1 k))
      (fun k l => (m ((c : Thread nD τ).loc main_arg6)) (ix2 k l)) (fun k => (m ((c : Thread nD τ).loc main_arg7)) (ix1 k)) (i 0) (i 1)) := by
  rw [V3_v17, H.edge, V1_v11, V1_arg1, V1_arg4, V1_arg6,
    show (fun k : Fin 64 => V1 m ρ c main_v12 (ix2 0 k)) = fun k => (m ((c : Thread nD τ).loc main_arg5)) (ix1 k) from funext fun k => V1_v12_apply m ρ c k,
    show (fun k : Fin 64 => V1 m ρ c main_v13 (ix2 0 k)) = fun k => (m ((c : Thread nD τ).loc main_arg7)) (ix1 k) from funext fun k => V1_v13_apply m ρ c k]
  rfl

theorem node_apply (H : Regions m ρ c) (r : Fin 100000) (q : Fin 128) :
    W4 m ρ c (Proc.devRef .tc main_v20_0) (ix2 r q) = U m ρ c r q := by
  rw [H.node]; show Uin m ρ c r q = _; rw [Uin_eq]

/-- The column means the host computes from the blocks' sums are the means over all the nodes. -/
theorem meanK (H : Regions m ρ c) (q : Fin 128) :
    BlockStats.blockAvg (W4 m ρ c (Proc.devRef .tc main_v20_1)) (ix1 q) = MsgNet.mean (U m ρ c) q :=
  BlockStats.mean_of_blocks (U m ρ c) _ (fun t q => by
    rw [H.nodesum]; show ∑ p : Fin 5000, Uin m ρ c (MsgNet.blockRow t p) q = _; rw [Uin_eq]) q

theorem V5_v25_apply (H : Regions m ρ c) (q : Fin 128) : V5 m ρ c main_v25 (ix2 0 q) = MsgNet.mean (U m ρ c) q := by
  rw [V5_v25]; exact (BlockStats.asRow_apply _ q).trans (meanK H q)
theorem V7_v31_apply (H : Regions m ρ c) (q : Fin 128) : V7 m ρ c main_v31 (ix2 0 q) = MsgNet.mean (U m ρ c) q := by
  rw [V7_v31]; exact (BlockStats.asRow_apply _ q).trans (meanK H q)
theorem V5_v20_0_apply (H : Regions m ρ c) (r : Fin 100000) (q : Fin 128) : V5 m ρ c main_v20_0 (ix2 r q) = U m ρ c r q := by
  rw [V5_v20_0]; exact node_apply H r q
theorem V7_v20_0_apply (H : Regions m ρ c) (r : Fin 100000) (q : Fin 128) : V7 m ρ c main_v20_0 (ix2 r q) = U m ρ c r q := by
  rw [V7_v20_0]; exact node_apply H r q

/-- The column variances the host computes from the blocks' sums of squared deviations are the variances over all
    the nodes. -/
theorem varK (H : Regions m ρ c) (q : Fin 128) :
    BlockStats.blockAvg (W6 m ρ c (Proc.devRef .tc main_v26)) (ix1 q) = MsgNet.var (U m ρ c) q :=
  BlockStats.var_of_blocks (U m ρ c) _ (MsgNet.mean (U m ρ c)) (fun _ => rfl) (fun t q => by
    rw [H.sqsum]; exact sqsumG_apply _ _ (U m ρ c) _ (V5_v20_0_apply H) (V5_v25_apply H) t q) q

theorem V7_v32_apply (H : Regions m ρ c) (q : Fin 128) : V7 m ρ c main_v32 (ix2 0 q) = MsgNet.var (U m ρ c) q := by
  rw [V7_v32]; exact (BlockStats.asRow_apply _ q).trans (varK H q)

/-- The program's result: the normalised node update, with the launch scale and shift. -/
theorem result (H : Regions m ρ c) : W8 m ρ c (Proc.devRef .tc main_v35) = fun i =>
    MsgNet.bn (U m ρ c) (fun q => (m ((c : Thread nD τ).loc main_arg12)) (ix1 q)) (fun q => (m ((c : Thread nD τ).loc main_arg13)) (ix1 q)) (i 0) (i 1) := by
  rw [H.scale]
  exact scaleG_eq _ _ _ _ _ (U m ρ c) _ _ (V7_v20_0_apply H) (V7_v31_apply H) (V7_v32_apply H)
    (V7_v33_apply m ρ c) (V7_v34_apply m ρ c)

end Cert.KernelIdeal.Chain

end
-- ==== Proof.EdgeValue.lean ====
/-
  The edge stage of the message-passing layer, read off the program that computes it block by block.

  The program cuts the 1600000 edges into 250 blocks of 6400 rows.  At block `t` it reads rows `6400 t … 6400 t + 6399`
  of the gathered source rows and of the edge features, the two weight matrices and the two bias rows whole, and writes
  the same rows of the result.  What it writes at row `p`, column `q` of a block is
  `max (∑ l, max (∑ m, z p m * W0 l m + b0 l) 0 * W1 q l + b1 q) 0`, where `z` is the source row beside the edge features:
  a product against a transposed matrix sums over that matrix's columns, a bias row is repeated down the rows, and a
  change of float format is the identity on extended reals.  The 250 blocks tile the array, so the array ends holding
  `Cert.MsgNet.msg` of the whole input arrays, index by index.
-/
import proofs.«140201_j79508434583745_2_alg».proof.Proof.Gen.KernelIdeal.Frame
import proofs.«140201_j79508434583745_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Idealize.ShloMosaic Idealize.ShloMosaic.TcCoe Idealize.SL.Sem
open Idealize.ShloMosaic.Pipeline (Dat)
open Idealize.ShloMosaic.ValueIdx
open Cert.KernelIdeal Cert.KernelIdeal.Facts₀ Cert.KernelIdeal.Facts

/-! ## The body's operations at an index -/

/-- The product of a [6400,128] block with a [128,64] matrix into a zero accumulator, at row `p` and column `q`:
    the sum over the 128 contracted positions. -/
theorem dotWide_apply (a : FVec Ideal S6400x128 .bf16) (b : FVec Ideal S128x64 .bf16) (p : Fin 6400) (q : Fin 64) :
    matmul dot_S6400x128_S128x64_S6400x64_1_0_0_1_n_n none a b (constant (F := Ideal) S6400x64 .f32 0x00000000#32) (ix2 p q)
      = ∑ l : Fin 128, a (ix2 p l) * b (ix2 l q) := by
  refine (Ideal.matmul_constant_zero_apply dot_S6400x128_S128x64_S6400x64_1_0_0_1_n_n none a b (ix2 p q)).trans ?_
  refine (Equiv.sum_comp (contrEquiv1 dot_S6400x128_S128x64_S6400x64_1_0_0_1_n_n 128 rfl rfl).symm _).symm.trans ?_
  refine Finset.sum_congr rfl fun l _ => ?_
  have ea : dot_S6400x128_S128x64_S6400x64_1_0_0_1_n_n.lhsIdx (ix2 p q)
      ((contrEquiv1 dot_S6400x128_S128x64_S6400x64_1_0_0_1_n_n 128 rfl rfl).symm l) = ix2 p l := by
    funext d; apply Fin.ext
    match d with
    | ⟨0, _⟩ => rfl
    | ⟨1, _⟩ => exact (DotDims.lhsIdx_val_of_single _ rfl _ _).trans (contrEquiv1_symm_val _ 128 rfl rfl l)
  have eb : dot_S6400x128_S128x64_S6400x64_1_0_0_1_n_n.rhsIdx (ix2 p q)
      ((contrEquiv1 dot_S6400x128_S128x64_S6400x64_1_0_0_1_n_n 128 rfl rfl).symm l) = ix2 l q := by
    funext d; apply Fin.ext
    match d with
    | ⟨0, _⟩ => exact (DotDims.rhsIdx_val_of_single _ rfl _ _).trans (contrEquiv1_symm_val _ 128 rfl rfl l)
    | ⟨1, _⟩ => rfl
  rw [ea, eb]

/-- The product of a [6400,64] block with a [64,64] matrix into a zero accumulator, at row `p` and column `q`:
    the sum over the 64 contracted positions. -/
theorem dotSquare_apply (a : FVec Ideal S6400x64 .bf16) (b : FVec Ideal S64x64 .bf16) (p : Fin 6400) (q : Fin 64) :
    matmul dot_S6400x64_S64x64_S6400x64_1_0_0_1_n_n none a b (constant (F := Ideal) S6400x64 .f32 0x00000000#32) (ix2 p q)
      = ∑ l : Fin 64, a (ix2 p l) * b (ix2 l q) := by
  refine (Ideal.matmul_constant_zero_apply dot_S6400x64_S64x64_S6400x64_1_0_0_1_n_n none a b (ix2 p q)).trans ?_
  refine (Equiv.sum_comp (contrEquiv1 dot_S6400x64_S64x64_S6400x64_1_0_0_1_n_n 64 rfl rfl).symm _).symm.trans ?_
  refine Finset.sum_congr rfl fun l _ => ?_
  have ea : dot_S6400x64_S64x64_S6400x64_1_0_0_1_n_n.lhsIdx (ix2 p q)
      ((contrEquiv1 dot_S6400x64_S64x64_S6400x64_1_0_0_1_n_n 64 rfl rfl).symm l) = ix2 p l := by
    funext d; apply Fin.ext
    match d with
    | ⟨0, _⟩ => rfl
    | ⟨1, _⟩ => exact (DotDims.lhsIdx_val_of_single _ rfl _ _).trans (contrEquiv1_symm_val _ 64 rfl rfl l)
  have eb : dot_S6400x64_S64x64_S6400x64_1_0_0_1_n_n.rhsIdx (ix2 p q)
      ((contrEquiv1 dot_S6400x64_S64x64_S6400x64_1_0_0_1_n_n 64 rfl rfl).symm l) = ix2 l q := by
    funext d; apply Fin.ext
    match d with
    | ⟨0, _⟩ => exact (DotDims.rhsIdx_val_of_single _ rfl _ _).trans (contrEquiv1_symm_val _ 64 rfl rfl l)
    | ⟨1, _⟩ => rfl
  rw [ea, eb]

/-- A [1,64] bias row repeated down 6400 rows, at row `p` and column `q`: the row's entry at `q`. -/
theorem biasRow_apply (b : FVec Ideal S1x64 .f32) (p : Fin 6400) (q : Fin 64) :
    broadcastTo S6400x64 (shapeCast S1x64 b shapeCasts_S1x64_S1x64) broadcasts_S1x64_S6400x64 (ix2 p q) = b (ix2 0 q) := by
  rw [shapeCast_self]
  exact broadcastTo_apply b broadcasts_S1x64_S6400x64 (ix2 p q) (ix2 0 q) fun a => by
    match a with
    | ⟨0, _⟩ => rfl
    | ⟨1, _⟩ => rfl

/-- The transposed [64,128] weight matrix at row `m` and column `l`: the matrix at row `l`, column `m`. -/
theorem wideT_apply (w : FVec Ideal S64x128 .f32) (m : Fin 128) (l : Fin 64) :
    transpose S128x64 [1, 0] (truncf .bf16 w bitsLt_bf16_f32) transposes_S64x128_p1_0_S128x64 (ix2 m l) = w (ix2 l m) :=
  transpose_apply [1, 0] (truncf .bf16 w bitsLt_bf16_f32) transposes_S64x128_p1_0_S128x64 (ix2 m l) (ix2 l m) fun b => by
    match b with
    | ⟨0, _⟩ => rfl
    | ⟨1, _⟩ => rfl

/-- The transposed [64,64] weight matrix at row `l` and column `q`: the matrix at row `q`, column `l`. -/
theorem squareT_apply (w : FVec Ideal S64x64 .f32) (l : Fin 64) (q : Fin 64) :
    transpose S64x64 [1, 0] (truncf .bf16 w bitsLt_bf16_f32) transposes_S64x64_p1_0_S64x64 (ix2 l q) = w (ix2 q l) :=
  transpose_apply [1, 0] (truncf .bf16 w bitsLt_bf16_f32) transposes_S64x64_p1_0_S64x64 (ix2 l q) (ix2 q l) fun b => by
    match b with
    | ⟨0, _⟩ => rfl
    | ⟨1, _⟩ => rfl

/-- The two [6400,64] blocks side by side, at row `p` and column `m`: the first block's column `m` below 64, the second
    block's column `m - 64` from 64 on. -/
theorem beside_apply (x : FVec Ideal S6400x64 .bf16) (y : FVec Ideal S6400x64 .f32) (p : Fin 6400) (m : Fin 128) :
    concatenate S6400x128 1 [⟨S6400x64, shapeCast S6400x64 x shapeCasts_S6400x64_S6400x64⟩, ⟨S6400x64, truncf .bf16 y bitsLt_bf16_f32⟩]
        concatenates_S6400x64_S6400x64_S6400x128_d1 (ix2 p m)
      = Cert.MsgNet.cat64 (fun e l => x (ix2 e l)) (fun e l => y (ix2 e l)) p m := by
  rw [shapeCast_self]
  unfold Cert.MsgNet.cat64
  by_cases h : m.val < 64
  · rw [dif_pos h]
    exact concatenate_pair_apply_left 1 x (truncf .bf16 y bitsLt_bf16_f32) concatenates_S6400x64_S6400x64_S6400x128_d1
      (ix2 p m) rfl (ix2 p ⟨m.val, h⟩) fun b => by
        match b with
        | ⟨0, _⟩ => rfl
        | ⟨1, _⟩ => rfl
  · rw [dif_neg h]
    exact concatenate_pair_apply_right 1 x (truncf .bf16 y bitsLt_bf16_f32) concatenates_S6400x64_S6400x64_S6400x128_d1
      (ix2 p m) rfl rfl (ix2 p ⟨m.val - 64, by omega⟩) (fun b hb => by
        match b, hb with
        | ⟨0, _⟩, _ => rfl
        | ⟨1, _⟩, hb => exact absurd rfl hb)
      (by show m.val - 64 + 64 = m.val; omega)

/-- The first layer on a block: the product against the transposed [64,128] weights, plus the bias row, positive part —
    at row `p` and column `l`. -/
theorem layerWide_apply (z : FVec Ideal S6400x128 .bf16) (w : FVec Ideal S64x128 .f32) (b : FVec Ideal S1x64 .f32)
    (p : Fin 6400) (l : Fin 64) :
    maximumf
        (addf
          (matmul dot_S6400x128_S128x64_S6400x64_1_0_0_1_n_n none z
            (transpose S128x64 [1, 0] (truncf .bf16 w bitsLt_bf16_f32) transposes_S64x128_p1_0_S128x64)
            (constant (F := Ideal) S6400x64 .f32 0x00000000#32))
          (broadcastTo S6400x64 (shapeCast S1x64 b shapeCasts_S1x64_S1x64) broadcasts_S1x64_S6400x64))
        (broadcast S6400x64 (Scalar.ofBits (F := Ideal) .f32 0x00000000#32)) (ix2 p l)
      = max ((∑ m : Fin 128, z (ix2 p m) * w (ix2 l m)) + b (ix2 0 l)) 0 := by
  show max (matmul dot_S6400x128_S128x64_S6400x64_1_0_0_1_n_n none z
            (transpose S128x64 [1, 0] (truncf .bf16 w bitsLt_bf16_f32) transposes_S64x128_p1_0_S128x64)
            (constant (F := Ideal) S6400x64 .f32 0x00000000#32) (ix2 p l)
          + broadcastTo S6400x64 (shapeCast S1x64 b shapeCasts_S1x64_S1x64) broadcasts_S1x64_S6400x64 (ix2 p l))
        (Ideal.ofBits .f32 0x00000000#32) = _
  rw [dotWide_apply, biasRow_apply, Ideal.ofBits_zero_f32]
  exact congrArg (fun s => max (s + b (ix2 0 l)) 0)
    (Finset.sum_congr rfl fun m _ => congrArg (fun s => z (ix2 p m) * s) (wideT_apply w m l))

/-- The second layer on a block: the product against the transposed [64,64] weights, plus the bias row, positive part —
    at row `p` and column `q`. -/
theorem layerSquare_apply (z : FVec Ideal S6400x64 .bf16) (w : FVec Ideal S64x64 .f32) (b : FVec Ideal S1x64 .f32)
    (p : Fin 6400) (q : Fin 64) :
    maximumf
        (addf
          (matmul dot_S6400x64_S64x64_S6400x64_1_0_0_1_n_n none z
            (transpose S64x64 [1, 0] (truncf .bf16 w bitsLt_bf16_f32) transposes_S64x64_p1_0_S64x64)
            (constant (F := Ideal) S6400x64 .f32 0x00000000#32))
          (broadcastTo S6400x64 (shapeCast S1x64 b shapeCasts_S1x64_S1x64) broadcasts_S1x64_S6400x64))
        (broadcast S6400x64 (Scalar.ofBits (F := Ideal) .f32 0x00000000#32)) (ix2 p q)
      = max ((∑ l : Fin 64, z (ix2 p l) * w (ix2 q l)) + b (ix2 0 q)) 0 := by
  show max (matmul dot_S6400x64_S64x64_S6400x64_1_0_0_1_n_n none z
            (transpose S64x64 [1, 0] (truncf .bf16 w bitsLt_bf16_f32) transposes_S64x64_p1_0_S64x64)
            (constant (F := Ideal) S6400x64 .f32 0x00000000#32) (ix2 p q)
          + broadcastTo S6400x64 (shapeCast S1x64 b shapeCasts_S1x64_S1x64) broadcasts_S1x64_S6400x64 (ix2 p q))
        (Ideal.ofBits .f32 0x00000000#32) = _
  rw [dotSquare_apply, biasRow_apply, Ideal.ofBits_zero_f32]
  exact congrArg (fun s => max (s + b (ix2 0 q)) 0)
    (Finset.sum_congr rfl fun l _ => congrArg (fun s => z (ix2 p l) * s) (squareT_apply w l q))

/-! ## The body's payload at an index -/

/-- What the body stores at row `p`, column `q` of a block: the message of row `p` of the two input blocks under the
    two weight matrices and bias rows. -/
theorem pay_apply (x0 : Vec Ideal S6400x64 .bf16) (x1 : Vec Ideal S6400x64 .f32) (x2 : Vec Ideal S64x128 .f32)
    (x3 : Vec Ideal S1x64 .f32) (x4 : Vec Ideal S64x64 .f32) (x5 : Vec Ideal S1x64 .f32) (p : Fin 6400) (q : Fin 64) :
    Gen.k0_pay1 x0 x1 x2 x3 x4 x5 (ix2 p q)
      = Cert.MsgNet.msg (fun e l => x0 (ix2 e l)) (fun e l => x1 (ix2 e l)) (fun k l => x2 (ix2 k l))
          (fun k => x3 (ix2 0 k)) (fun k l => x4 (ix2 k l)) (fun k => x5 (ix2 0 k)) p q := by
  unfold Gen.k0_pay1
  refine (layerSquare_apply _ x4 x5 p q).trans ?_
  show _ = max ((∑ l : Fin 64,
      max ((∑ m : Fin 128, Cert.MsgNet.cat64 (fun e l => x0 (ix2 e l)) (fun e l => x1 (ix2 e l)) p m * x2 (ix2 l m))
        + x3 (ix2 0 l)) 0 * x4 (ix2 q l)) + x5 (ix2 0 q)) 0
  refine congrArg (fun s => max (s + x5 (ix2 0 q)) 0) (Finset.sum_congr rfl fun l _ => ?_)
  refine congrArg (fun s => s * x4 (ix2 q l)) ?_
  refine (layerWide_apply _ x2 x3 p l).trans ?_
  refine congrArg (fun s => max (s + x3 (ix2 0 l)) 0) (Finset.sum_congr rfl fun m _ => ?_)
  exact congrArg (fun s => s * x2 (ix2 l m)) (beside_apply x0 x1 p m)

/-! ## The windows' blocks as rows of their arrays -/

theorem hz : (![0, 0] : Fin 2 → Nat) = fun _ => 0 := funext fun a => by fin_cases a <;> rfl

/-- The index maps over the 250 grid points: the three windows cut into row blocks sit at row block `t`, the four whole
    windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row `p` of the source-row block at point `t` is row `6400 t + p` of the gathered array. -/
theorem srcBlock_apply (c : Dev nD) (t : Fin cfg0.N) (p : Fin 6400) (l : Fin 64) (r : Fin 1600000)
    (hr : r.val = 6400 * t.val + p.val) :
    (Gen.iblk0 V c 0 t : Vec Ideal S6400x64 .bf16) (ix2 p l) = V c main_v11 (ix2 r l) := by
  obtain ⟨e0, e1, -⟩ := idx_facts t
  unfold Gen.iblk0
  rw [View.read_apply]
  show V c main_v11 _ = V c main_v11 _
  refine congrArg (V c main_v11) (funext fun a => Fin.ext ?_)
  match a with
  | ⟨0, _⟩ => show win0_0.index t (0 : Fin 2) * 6400 + 1 * p.val = r.val; rw [e0, hr]; omega
  | ⟨1, _⟩ => show win0_0.index t (1 : Fin 2) * 64 + 1 * l.val = l.val; rw [e1]; omega

/-- Row `p` of the edge-feature block at point `t` is row `6400 t + p` of the edge features. -/
theorem featBlock_apply (c : Dev nD) (t : Fin cfg0.N) (p : Fin 6400) (l : Fin 64) (r : Fin 1600000)
    (hr : r.val = 6400 * t.val + p.val) :
    (Gen.iblk0 V c 1 t : Vec Ideal S6400x64 .f32) (ix2 p l) = V c main_arg1 (ix2 r l) := by
  obtain ⟨-, -, e0, e1, -⟩ := idx_facts t
  unfold Gen.iblk0
  rw [View.read_apply]
  show V c main_arg1 _ = V c main_arg1 _
  refine congrArg (V c main_arg1) (funext fun a => Fin.ext ?_)
  match a with
  | ⟨0, _⟩ => show win0_1.index t (0 : Fin 2) * 6400 + 1 * p.val = r.val; rw [e0, hr]; omega
  | ⟨1, _⟩ => show win0_1.index t (1 : Fin 2) * 64 + 1 * l.val = l.val; rw [e1]; omega

/-- The first weight matrix's block at every point is the matrix. -/
theorem wideBlock_apply (c : Dev nD) (t : Fin cfg0.N) (k : Fin 64) (l : Fin 128) :
    (Gen.iblk0 V c 2 t : Vec Ideal S64x128 .f32) (ix2 k l) = V c main_arg4 (ix2 k l) := by
  obtain ⟨-, -, -, -, e0, e1, -⟩ := idx_facts t
  unfold Gen.iblk0
  rw [View.read_apply]
  show V c main_arg4 _ = V c main_arg4 _
  refine congrArg (V c main_arg4) (funext fun a => Fin.ext ?_)
  match a with
  | ⟨0, _⟩ => show win0_2.index t (0 : Fin 2) * 64 + 1 * k.val = k.val; rw [e0]; omega
  | ⟨1, _⟩ => show win0_2.index t (1 : Fin 2) * 128 + 1 * l.val = l.val; rw [e1]; omega

/-- The first bias row's block at every point is the row. -/
theorem biasWideBlock_apply (c : Dev nD) (t : Fin cfg0.N) (k : Fin 64) :
    (Gen.iblk0 V c 3 t : Vec Ideal S1x64 .f32) (ix2 0 k) = V c main_v12 (ix2 0 k) := by
  obtain ⟨-, -, -, -, -, -, e0, e1, -⟩ := idx_facts t
  unfold Gen.iblk0
  rw [View.read_apply]
  show V c main_v12 _ = V c main_v12 _
  refine congrArg (V c main_v12) (funext fun a => Fin.ext ?_)
  match a with
  | ⟨0, _⟩ => show win0_3.index t (0 : Fin 2) * 1 + 1 * 0 = 0; rw [e0]
  | ⟨1, _⟩ => show win0_3.index t (1 : Fin 2) * 64 + 1 * k.val = k.val; rw [e1]; omega

/-- The second weight matrix's block at every point is the matrix. -/
theorem squareBlock_apply (c : Dev nD) (t : Fin cfg0.N) (k : Fin 64) (l : Fin 64) :
    (Gen.iblk0 V c 4 t : Vec Ideal S64x64 .f32) (ix2 k l) = V c main_arg6 (ix2 k l) := by
  obtain ⟨-, -, -, -, -, -, -, -, e0, e1, -⟩ := idx_facts t
  unfold Gen.iblk0
  rw [View.read_apply]
  show V c main_arg6 _ = V c main_arg6 _
  refine congrArg (V c main_arg6) (funext fun a => Fin.ext ?_)
  match a with
  | ⟨0, _⟩ => show win0_4.index t (0 : Fin 2) * 64 + 1 * k.val = k.val; rw [e0]; omega
  | ⟨1, _⟩ => show win0_4.index t (1 : Fin 2) * 64 + 1 * l.val = l.val; rw [e1]; omega

/-- The second bias row's block at every point is the row. -/
theorem biasSquareBlock_apply (c : Dev nD) (t : Fin cfg0.N) (k : Fin 64) :
    (Gen.iblk0 V c 5 t : Vec Ideal S1x64 .f32) (ix2 0 k) = V c main_v13 (ix2 0 k) := by
  obtain ⟨-, -, -, -, -, -, -, -, -, -, e0, e1, -⟩ := idx_facts t
  unfold Gen.iblk0
  rw [View.read_apply]
  show V c main_v13 _ = V c main_v13 _
  refine congrArg (V c main_v13) (funext fun a => Fin.ext ?_)
  match a with
  | ⟨0, _⟩ => show win0_5.index t (0 : Fin 2) * 1 + 1 * 0 = 0; rw [e0]
  | ⟨1, _⟩ => show win0_5.index t (1 : Fin 2) * 64 + 1 * k.val = k.val; rw [e1]; omega

/-! ## From blocks to the array -/

/-- An edge's message reads only that edge's row of the two row inputs: two settings that agree on one row each, on
    the weights and on the biases give the same message on those rows. -/
theorem msg_congr_row {n n' : Nat} (xs ef : Fin n → Fin 64 → EReal) (xs' ef' : Fin n' → Fin 64 → EReal)
    (W0 W0' : Fin 64 → Fin 128 → EReal) (b0 b0' : Fin 64 → EReal) (W1 W1' : Fin 64 → Fin 64 → EReal)
    (b1 b1' : Fin 64 → EReal) (r : Fin n) (r' : Fin n') (q q' : Fin 64)
    (hx : ∀ l, xs r l = xs' r' l) (he : ∀ l, ef r l = ef' r' l) (hW0 : ∀ k l, W0 k l = W0' k l)
    (hb0 : ∀ k, b0 k = b0' k) (hW1 : ∀ k l, W1 k l = W1' k l) (hb1 : ∀ k, b1 k = b1' k) (hq : q.val = q'.val) :
    Cert.MsgNet.msg xs ef W0 b0 W1 b1 r q = Cert.MsgNet.msg xs' ef' W0' b0' W1' b1' r' q' := by
  obtain rfl : W0 = W0' := funext fun k => funext (hW0 k)
  obtain rfl : b0 = b0' := funext hb0
  obtain rfl : W1 = W1' := funext fun k => funext (hW1 k)
  obtain rfl : b1 = b1' := funext hb1
  obtain rfl : q = q' := Fin.ext hq
  unfold Cert.MsgNet.msg Cert.MsgNet.relu Cert.MsgNet.lin Cert.MsgNet.cat64
  simp only [hx, he]

/-- The whole edge stage: the message of every edge, from the region's input arrays as it finds them. -/
abbrev edgeOut (c : Dev nD) : S1600000x64.Idx → EReal := fun i =>
  Cert.MsgNet.msg (n := 1600000) (fun e l => V c main_v11 (ix2 e l)) (fun e l => V c main_arg1 (ix2 e l))
    (fun k l => V c main_arg4 (ix2 k l)) (fun k => V c main_v12 (ix2 0 k)) (fun k l => V c main_arg6 (ix2 k l))
    (fun k => V c main_v13 (ix2 0 k)) (i 0) (i 1)

/-- What point `t` writes back is block `t` of the whole edge stage. -/
theorem flushed_eq (c : Dev nD) (t : Fin cfg0.N) :
    (Gen.dat0 (F := Ideal) V c).flushed 6 t = ((cfg0.win 6).blk t).view.read (Elt Ideal) (edgeOut V c) := by
  show (cfg0.win 6).cut (grid0.coords t) ((Gen.dat0 (F := Ideal) V c).after 6 t) = _
  rw [Gen.after0_6]
  unfold Gen.out0_6
  rw [View.canon_unit_zero hz]
  simp only [View.ld_unit_zero (S := S6400x64) hz, View.ld_unit_zero (S := S64x128) hz,
    View.ld_unit_zero (S := S1x64) hz, View.ld_unit_zero (S := S64x64) hz]
  obtain ⟨-, -, -, -, -, -, -, -, -, -, -, -, e0, e1⟩ := idx_facts t
  funext j
  have hp : (j 0).val < 6400 := (j 0).isLt
  have hq : (j 1).val < 64 := (j 1).isLt
  have hj : (cfg0.win 6).xinj (grid0.coords t) j = ix2 (⟨(j 0).val, hp⟩ : Fin 6400) (⟨(j 1).val, hq⟩ : Fin 64) :=
    funext fun a => by
      match a with
      | ⟨0, _⟩ => rfl
      | ⟨1, _⟩ => rfl
  have hr : (((cfg0.win 6).blk t).view.emb j 0).val = 6400 * t.val + (j 0).val := by
    show win0_6.index t (0 : Fin 2) * 6400 + 1 * (j 0).val = 6400 * t.val + (j 0).val
    rw [e0]; omega
  have hc : (j 1).val = (((cfg0.win 6).blk t).view.emb j 1).val := by
    show (j 1).val = win0_6.index t (1 : Fin 2) * 64 + 1 * (j 1).val
    rw [e1]; omega
  refine (congrArg (Gen.k0_pay1 (Gen.iblk0 V c 0 t) (Gen.iblk0 V c 1 t) (Gen.iblk0 V c 2 t) (Gen.iblk0 V c 3 t)
    (Gen.iblk0 V c 4 t) (Gen.iblk0 V c 5 t)) hj).trans ?_
  refine (pay_apply (Gen.iblk0 V c 0 t) (Gen.iblk0 V c 1 t) (Gen.iblk0 V c 2 t) (Gen.iblk0 V c 3 t)
    (Gen.iblk0 V c 4 t) (Gen.iblk0 V c 5 t) ⟨(j 0).val, hp⟩ ⟨(j 1).val, hq⟩).trans ?_
  exact msg_congr_row (n := 6400) (n' := 1600000)
    (fun e l => (Gen.iblk0 V c 0 t : Vec Ideal S6400x64 .bf16) (ix2 e l))
    (fun e l => (Gen.iblk0 V c 1 t : Vec Ideal S6400x64 .f32) (ix2 e l))
    (fun e l => V c main_v11 (ix2 e l)) (fun e l => V c main_arg1 (ix2 e l))
    (fun k l => (Gen.iblk0 V c 2 t : Vec Ideal S64x128 .f32) (ix2 k l)) (fun k l => V c main_arg4 (ix2 k l))
    (fun k => (Gen.iblk0 V c 3 t : Vec Ideal S1x64 .f32) (ix2 0 k)) (fun k => V c main_v12 (ix2 0 k))
    (fun k l => (Gen.iblk0 V c 4 t : Vec Ideal S64x64 .f32) (ix2 k l)) (fun k l => V c main_arg6 (ix2 k l))
    (fun k => (Gen.iblk0 V c 5 t : Vec Ideal S1x64 .f32) (ix2 0 k)) (fun k => V c main_v13 (ix2 0 k))
    ⟨(j 0).val, hp⟩ (((cfg0.win 6).blk t).view.emb j 0) ⟨(j 1).val, hq⟩ (((cfg0.win 6).blk t).view.emb j 1)
    (fun l => srcBlock_apply V c t ⟨(j 0).val, hp⟩ l (((cfg0.win 6).blk t).view.emb j 0) hr)
    (fun l => featBlock_apply V c t ⟨(j 0).val, hp⟩ l (((cfg0.win 6).blk t).view.emb j 0) hr)
    (fun k l => wideBlock_apply V c t k l) (fun k => biasWideBlock_apply V c t k)
    (fun k l => squareBlock_apply V c t k l) (fun k => biasSquareBlock_apply V c t k) hc

/-- An index of the array is in point `t`'s block iff each coordinate is in the block's range on its axis. -/
theorem mem_blk (t : Fin cfg0.N) (i : S1600000x64.Idx) :
    i ∈ ((cfg0.win 6).blk t).view.set ↔ ∀ a : Fin 2, win0_6.index t a * S6400x64.size a ≤ (i a).val
      ∧ (i a).val < win0_6.index t a * S6400x64.size a + S6400x64.size a := by
  show i ∈ ((View.whole main_v14).slice (win0_6.rect t)).set ↔ _
  rw [View.set_slice_whole, Rect.mem_set_unit]
  exact Iff.rfl

/-- The 250 row blocks tile the array: row `r` is in the block of point `r / 6400`. -/
theorem cover (i : S1600000x64.Idx) :
    ∃ t : Fin cfg0.N, (cfg0.win 6).flush t = true ∧ i ∈ ((cfg0.win 6).blk t).view.set := by
  have hi0 : (i 0).val < 1600000 := (i 0).isLt
  have hi1 : (i 1).val < 64 := (i 1).isLt
  obtain ⟨t, ht⟩ : ∃ t : Fin cfg0.N, t.val = (i 0).val / 6400 :=
    ⟨⟨(i 0).val / 6400, (show (i 0).val / 6400 < 250 by omega).trans_eq Gen.N_0.symm⟩, rfl⟩
  obtain ⟨-, -, -, -, -, -, -, -, -, -, -, -, e0, e1⟩ := idx_facts t
  refine ⟨t, Gen.flush0_6 t, ?_⟩
  rw [mem_blk]
  intro a
  match a with
  | ⟨0, _⟩ =>
    show win0_6.index t (0 : Fin 2) * 6400 ≤ (i 0).val ∧ (i 0).val < win0_6.index t (0 : Fin 2) * 6400 + 6400
    rw [e0, ht]; omega
  | ⟨1, _⟩ =>
    show win0_6.index t (1 : Fin 2) * 64 ≤ (i 1).val ∧ (i 1).val < win0_6.index t (1 : Fin 2) * 64 + 64
    rw [e1]; omega

/-- THE EDGE STAGE'S ARRAY after the region: the message of every edge, from the region's input arrays as it finds
    them, index by index. -/
theorem edge_final (c : Dev nD) :
    (Gen.dat0 (F := Ideal) V c).arrAt 6 cfg0.N = fun i =>
      Cert.MsgNet.msg (fun e l => V c main_v11 (ix2 e l)) (fun e l => V c main_arg1 (ix2 e l))
        (fun k l => V c main_arg4 (ix2 k l)) (fun k => V c main_v12 (ix2 0 k)) (fun k l => V c main_arg6 (ix2 k l))
        (fun k => V c main_v13 (ix2 0 k)) (i 0) (i 1) :=
  (Gen.dat0 (F := Ideal) V c).arrAt_eq_of_cover 6 (edgeOut V c) (fun t _ => flushed_eq V c t) cover

end Cert.KernelIdeal.EdgeValue

end
-- ==== Proof.NodeValue.lean ====
/-
  What the node-update region leaves in its two result arrays, as whole-array functions of the arrays it reads.

  At a grid point the region's body takes row block `t` (5000 rows) of the node features and of the aggregated
  messages, puts them side by side (128 columns), applies an affine layer, the positive part, a second affine layer,
  and adds the 128-column input back; it stores that block, and the block's column sums.  Read index by index over the
  extended reals this is `MsgNet.upd` at row `5000 t + p`, and the column sums are the sums of `MsgNet.upd` over
  the block's 5000 rows.  The 20 row blocks tile the 100000 rows, so the first result array is `MsgNet.upd` of the
  whole input arrays and the second holds, at `(t, 0, j)`, the sum of column `j` over block `t`.
-/
import proofs.«140201_j79508434583745_2_alg».proof.Proof.Gen.KernelIdeal.Frame
import proofs.«140201_j79508434583745_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Idealize.ShloMosaic Idealize.ShloMosaic.TcCoe Idealize.SL.Sem
open Idealize.ShloMosaic.Pipeline (Dat)
open Idealize.ShloMosaic.ValueIdx
open Cert.KernelIdeal Cert.KernelIdeal.Facts₀ Cert.KernelIdeal.Facts

/-! ## The body's arithmetic at an index of a block -/

/-- The two 64-column blocks side by side, read at `(p, q)`: the first block's column `q` when `q < 64`, the second
    block's column `q - 64` otherwise. -/
theorem beside_apply (x0 x1 : FVec Ideal S5000x64 .f32) (p : Fin 5000) (q : Fin 128) :
    concatenate S5000x128 1 [⟨S5000x64, x0⟩, ⟨S5000x64, x1⟩] concatenates_S5000x64_S5000x64_S5000x128_d1 (ix2 p q)
      = MsgNet.cat64 (fun r l => x0 (ix2 r l)) (fun r l => x1 (ix2 r l)) p q := by
  unfold MsgNet.cat64
  by_cases h : q.val < 64
  · rw [dif_pos h]
    refine concatenate_pair_apply_left 1 x0 x1 _ (ix2 p q) rfl (ix2 p ⟨q.val, h⟩) fun b => ?_
    match b with
    | ⟨0, _⟩ => rfl
    | ⟨1, _⟩ => rfl
  · rw [dif_neg h]
    refine concatenate_pair_apply_right 1 x0 x1 _ (ix2 p q) rfl rfl (ix2 p ⟨q.val - 64, by omega⟩) (fun b hb => ?_) ?_
    · match b with
      | ⟨0, _⟩ => rfl
      | ⟨1, _⟩ => exact absurd rfl hb
    · show q.val - 64 + 64 = q.val
      omega

/-- A block against the transposed weights, accumulated from zero, read at `(p, q)`: row `p` of the block against
    row `q` of the weights. -/
theorem against_apply (z : FVec Ideal S5000x128 .bf16) (w : FVec Ideal S128x128 .bf16) (p : Fin 5000) (q : Fin 128) :
    matmul dot_S5000x128_S128x128_S5000x128_1_0_0_1_n_n none z
        (transpose S128x128 [1, 0] w transposes_S128x128_p1_0_S128x128)
        (constant (F := Ideal) S5000x128 .f32 0x00000000#32) (ix2 p q)
      = ∑ l : Fin 128, z (ix2 p l) * w (ix2 q l) := by
  have hl : dot_S5000x128_S128x128_S5000x128_1_0_0_1_n_n.lhsContracting = [1] := rfl
  have hr : dot_S5000x128_S128x128_S5000x128_1_0_0_1_n_n.rhsContracting = [0] := rfl
  refine (Ideal.matmul_constant_zero_apply dot_S5000x128_S128x128_S5000x128_1_0_0_1_n_n none z
    (transpose S128x128 [1, 0] w transposes_S128x128_p1_0_S128x128) (ix2 p q)).trans ?_
  rw [← Equiv.sum_comp (contrEquiv1 dot_S5000x128_S128x128_S5000x128_1_0_0_1_n_n 128 rfl rfl).symm]
  refine Finset.sum_congr rfl fun l _ => ?_
  congr 1
  · refine congrArg z (funext fun a => Fin.ext ?_)
    match a with
    | ⟨0, _⟩ => rfl
    | ⟨1, _⟩ =>
      exact (DotDims.lhsIdx_val_of_single _ hl (ix2 p q) _).trans
        (contrEquiv1_symm_val dot_S5000x128_S128x128_S5000x128_1_0_0_1_n_n 128 rfl rfl l)
  · refine transpose_apply [1, 0] w _ _ (ix2 q l) fun b => ?_
    match b with
    | ⟨0, _⟩ =>
      exact ((DotDims.rhsIdx_val_of_single _ hr (ix2 p q) _).trans
        (contrEquiv1_symm_val dot_S5000x128_S128x128_S5000x128_1_0_0_1_n_n 128 rfl rfl l)).symm
    | ⟨1, _⟩ => rfl

/-- The bias row spread over the block's rows, read at `(p, q)`: the row's entry `q`. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_1b_ab_apply b _ p q

/-- The same with the bias row as loaded. -/
theorem bias_apply' (b : Vec Ideal S1x128 .f32) (p : Fin 5000) (q : Fin 128) :
    broadcastTo S5000x128 b broadcasts_S1x128_S5000x128 (ix2 p q) = b (ix2 (0 : Fin 1) q) :=
  broadcastTo_1b_ab_apply b _ p q

/-- The node update of one block, over the block's own row numbers. -/
def blockUpd (x0 x1 : Vec Ideal S5000x64 .f32) (x2 : Vec Ideal S128x128 .f32) (x3 : Vec Ideal S1x128 .f32)
    (x4 : Vec Ideal S128x128 .f32) (x5 : Vec Ideal S1x128 .f32) : Fin 5000 → Fin 128 → EReal :=
  MsgNet.upd (fun r l => x0 (ix2 r l)) (fun r l => x1 (ix2 r l)) (fun k l => x2 (ix2 k l)) (fun k => x3 (ix2 (0 : Fin 1) k))
    (fun k l => x4 (ix2 k l)) (fun k => x5 (ix2 (0 : Fin 1) k))

/-- The body's stored block at `(p, q)` is the node update of the blocks it loaded. -/
theorem stored_apply (x0 x1 : Vec Ideal S5000x64 .f32) (x2 : Vec Ideal S128x128 .f32) (x3 : Vec Ideal S1x128 .f32)
    (x4 : Vec Ideal S128x128 .f32) (x5 : Vec Ideal S1x128 .f32) (p : Fin 5000) (q : Fin 128) :
    Gen.k1_pay1 x0 x1 x2 x3 x4 x5 (ix2 p q) = blockUpd x0 x1 x2 x3 x4 x5 p q := by
  unfold Gen.k1_pay1
  simp only [shapeCast_self, addf_apply]
  refine congrArg₂ (· + ·) (congrArg₂ (· + ·) ((against_apply _ _ p q).trans ?_) (bias_apply' x5 p q)) ((beside_apply x0 _ p q).trans ?_)
  · refine Finset.sum_congr rfl fun l _ => ?_
    refine congrArg₂ (· * ·) ?_ rfl
    show max (_ + _) _ = max (_ + _) 0
    refine congrArg₂ max (congrArg₂ (· + ·) ((against_apply _ _ p l).trans ?_) (bias_apply' x3 p l)) Ideal.ofBits_zero_f32
    refine Finset.sum_congr rfl fun l' _ => ?_
    refine congrArg₂ (· * ·) ((beside_apply x0 _ p l').trans ?_) rfl
    simp only [shapeCast_self]
  · simp only [shapeCast_self]

/-- The node update at a row reads its two inputs only through that row. -/
theorem upd_row {n m : Nat} (x agg : Fin n → Fin 64 → EReal) (x' agg' : Fin m → Fin 64 → EReal)
    (W0 W0' : Fin 128 → Fin 128 → EReal) (b0 b0' : Fin 128 → EReal) (W1 W1' : Fin 128 → Fin 128 → EReal)
    (b1 b1' : Fin 128 → EReal) (r : Fin n) (r' : Fin m) (j j' : Fin 128)
    (hx : ∀ l, x r l = x' r' l) (ha : ∀ l, agg r l = agg' r' l) (hW0 : ∀ k l, W0 k l = W0' k l)
    (hb0 : ∀ k, b0 k = b0' k) (hW1 : ∀ k l, W1 k l = W1' k l) (hb1 : ∀ k, b1 k = b1' k) (hj : j = j') :
    MsgNet.upd x agg W0 b0 W1 b1 r j = MsgNet.upd x' agg' W0' b0' W1' b1' r' j' := by
  obtain rfl : W0 = W0' := funext fun k => funext (hW0 k)
  obtain rfl : b0 = b0' := funext hb0
  obtain rfl : W1 = W1' := funext fun k => funext (hW1 k)
  obtain rfl : b1 = b1' := funext hb1
  subst hj
  have hc : ∀ l, MsgNet.cat64 x agg r l = MsgNet.cat64 x' agg' r' l := fun l => by
    unfold MsgNet.cat64
    split
    · exact hx _
    · exact ha _
  simp only [MsgNet.upd, MsgNet.lin, MsgNet.relu, hc]

/-! ## From blocks to the arrays -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Where each window's block sits at grid point `t`: the two inputs and the two results move with the row block
    `t`; the weights and bias rows are whole. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

section Arrays
variable (V : (c : Dev nD) → (b : Ref sig .tc) → Buf (Elt Ideal) ((c : Thread nD τ).loc b))

/-- The node update of the whole arrays the region reads. -/
def U (c : Dev nD) : Fin 100000 → Fin 128 → EReal :=
  MsgNet.upd (fun r l => V c main_arg0 (ix2 r l)) (fun r l => V c main_v17 (ix2 r l))
    (fun k l => V c main_arg8 (ix2 k l)) (fun k => V c main_v18 (ix2 (0 : Fin 1) k))
    (fun k l => V c main_arg10 (ix2 k l)) (fun k => V c main_v19 (ix2 (0 : Fin 1) k))

/-- Row `p` of the node features' block at point `t` is row `5000 t + p` of the array. -/
theorem feat_rows (c : Dev nD) (t : Fin cfg1.N) (p : Fin 5000) (l : Fin 64) (r : Fin 100000)
    (hr : r.val = 5000 * t.val + p.val) :
    (Gen.iblk1 V c 0 t : Vec Ideal S5000x64 .f32) (ix2 p l) = V c main_arg0 (ix2 r l) := by
  obtain ⟨e00, e01, e10, e11, -⟩ := block_index t
  unfold Gen.iblk1
  rw [View.read_apply]
  show V c main_arg0 _ = V c main_arg0 _
  refine congrArg (V c main_arg0) (funext fun a => Fin.ext ?_)
  match a with
  | ⟨0, _⟩ => show win1_0.index t (0 : Fin 2) * 5000 + 1 * p.val = r.val; omega
  | ⟨1, _⟩ => show win1_0.index t (1 : Fin 2) * 64 + 1 * l.val = l.val; omega

/-- Row `p` of the aggregated messages' block at point `t` is row `5000 t + p` of the array. -/
theorem agg_rows (c : Dev nD) (t : Fin cfg1.N) (p : Fin 5000) (l : Fin 64) (r : Fin 100000)
    (hr : r.val = 5000 * t.val + p.val) :
    (Gen.iblk1 V c 1 t : Vec Ideal S5000x64 .f32) (ix2 p l) = V c main_v17 (ix2 r l) := by
  obtain ⟨e00, e01, e10, e11, -⟩ := block_index t
  unfold Gen.iblk1
  rw [View.read_apply]
  show V c main_v17 _ = V c main_v17 _
  refine congrArg (V c main_v17) (funext fun a => Fin.ext ?_)
  match a with
  | ⟨0, _⟩ => show win1_1.index t (0 : Fin 2) * 5000 + 1 * p.val = r.val; omega
  | ⟨1, _⟩ => show win1_1.index t (1 : Fin 2) * 64 + 1 * l.val = l.val; omega

/-- The first weights' block at every point is the whole array. -/
theorem w0_whole (c : Dev nD) (t : Fin cfg1.N) (k : Fin 128) (l : Fin 128) :
    (Gen.iblk1 V c 2 t : Vec Ideal S128x128 .f32) (ix2 k l) = V c main_arg8 (ix2 k l) := by
  obtain ⟨-, -, -, -, e20, e21, e30, e31, e40, e41, e50, e51, -⟩ := block_index t
  unfold Gen.iblk1
  rw [View.read_apply]
  show V c main_arg8 _ = V c main_arg8 _
  refine congrArg (V c main_arg8) (funext fun a => Fin.ext ?_)
  match a with
  | ⟨0, _⟩ => show win1_2.index t (0 : Fin 2) * 128 + 1 * k.val = k.val; omega
  | ⟨1, _⟩ => show win1_2.index t (1 : Fin 2) * 128 + 1 * l.val = l.val; omega

/-- The first bias row's block at every point is the whole array. -/
theorem b0_whole (c : Dev nD) (t : Fin cfg1.N) (k : Fin 1) (l : Fin 128) :
    (Gen.iblk1 V c 3 t : Vec Ideal S1x128 .f32) (ix2 k l) = V c main_v18 (ix2 k l) := by
  obtain ⟨-, -, -, -, e20, e21, e30, e31, e40, e41, e50, e51, -⟩ := block_index t
  unfold Gen.iblk1
  rw [View.read_apply]
  show V c main_v18 _ = V c main_v18 _
  refine congrArg (V c main_v18) (funext fun a => Fin.ext ?_)
  match a with
  | ⟨0, _⟩ => show win1_3.index t (0 : Fin 2) * 1 + 1 * k.val = k.val; omega
  | ⟨1, _⟩ => show win1_3.index t (1 : Fin 2) * 128 + 1 * l.val = l.val; omega

/-- The second weights' block at every point is the whole array. -/
theorem w1_whole (c : Dev nD) (t : Fin cfg1.N) (k : Fin 128) (l : Fin 128) :
    (Gen.iblk1 V c 4 t : Vec Ideal S128x128 .f32) (ix2 k l) = V c main_arg10 (ix2 k l) := by
  obtain ⟨-, -, -, -, e20, e21, e30, e31, e40, e41, e50, e51, -⟩ := block_index t
  unfold Gen.iblk1
  rw [View.read_apply]
  show V c main_arg10 _ = V c main_arg10 _
  refine congrArg (V c main_arg10) (funext fun a => Fin.ext ?_)
  match a with
  | ⟨0, _⟩ => show win1_4.index t (0 : Fin 2) * 128 + 1 * k.val = k.val; omega
  | ⟨1, _⟩ => show win1_4.index t (1 : Fin 2) * 128 + 1 * l.val = l.val; omega

/-- The second bias row's block at every point is the whole array. -/
theorem b1_whole (c : Dev nD) (t : Fin cfg1.N) (k : Fin 1) (l : Fin 128) :
    (Gen.iblk1 V c 5 t : Vec Ideal S1x128 .f32) (ix2 k l) = V c main_v19 (ix2 k l) := by
  obtain ⟨-, -, -, -, e20, e21, e30, e31, e40, e41, e50, e51, -⟩ := block_index t
  unfold Gen.iblk1
  rw [View.read_apply]
  show V c main_v19 _ = V c main_v19 _
  refine congrArg (V c main_v19) (funext fun a => Fin.ext ?_)
  match a with
  | ⟨0, _⟩ => show win1_5.index t (0 : Fin 2) * 1 + 1 * k.val = k.val; omega
  | ⟨1, _⟩ => show win1_5.index t (1 : Fin 2) * 128 + 1 * l.val = l.val; omega

/-- The node update of the blocks at point `t`, at the block's row `p`, is the node update of the whole arrays at
    row `5000 t + p`. -/
theorem blockUpd_eq (c : Dev nD) (t : Fin cfg1.N) (p : Fin 5000) (q : Fin 128) (r : Fin 100000) (q' : Fin 128)
    (hr : r.val = 5000 * t.val + p.val) (hq : q = q') :
    blockUpd (Gen.iblk1 V c 0 t) (Gen.iblk1 V c 1 t) (Gen.iblk1 V c 2 t) (Gen.iblk1 V c 3 t) (Gen.iblk1 V c 4 t)
        (Gen.iblk1 V c 5 t) p q = U V c r q' :=
  upd_row _ _ _ _ _ _ _ _ _ _ _ _ p r q q' (fun l => feat_rows V c t p l r hr) (fun l => agg_rows V c t p l r hr)
    (fun k l => w0_whole V c t k l) (fun k => b0_whole V c t 0 k) (fun k l => w1_whole V c t k l)
    (fun k => b1_whole V c t 0 k) hq

/-- What point `t` writes back to the first result is block `t` of the node update of the whole arrays. -/
theorem node_flushed (c : Dev nD) (t : Fin cfg1.N) :
    (Gen.dat1 (F := Ideal) V c).flushed 6 t
      = ((cfg1.win 6).blk t).view.read (Elt Ideal) (fun i => U V c (i 0) (i 1)) := by
  show (cfg1.win 6).cut (grid1.coords t) ((Gen.dat1 V c).after 6 t) = _
  rw [Gen.after1_6]
  unfold Gen.out1_6
  rw [View.canon_unit_zero zeros2]
  simp only [View.ld_unit_zero (S := S5000x64) zeros2, View.ld_unit_zero (S := S128x128) zeros2,
    View.ld_unit_zero (S := S1x128) zeros2]
  funext j
  obtain ⟨p, q, rfl⟩ : ∃ (p : Fin 5000) (q : Fin 128), j = ix2 p q := ⟨j 0, j 1, eq_ix2 j⟩
  obtain ⟨-, -, -, -, -, -, -, -, -, -, -, -, e60, e61, -⟩ := block_index t
  refine (stored_apply _ _ _ _ _ _ p q).trans ?_
  rw [View.read_apply]
  refine blockUpd_eq V c t p q _ _ ?_ (Fin.ext ?_)
  · show win1_6.index t (0 : Fin 2) * 5000 + 1 * p.val = 5000 * t.val + p.val; omega
  · show q.val = win1_6.index t (1 : Fin 2) * 128 + 1 * q.val; omega

end Arrays

/-- An index of the first result array is in point `t`'s block iff each coordinate is in the block's range. -/
theorem node_mem_block (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v20_0).slice (win1_6.rect t)).set ↔ _
  rw [View.set_slice_whole, Rect.mem_set_unit]
  exact Iff.rfl

/-- Row `r` of the first result array is in the block of point `r / 5000`: the 20 row blocks tile the array. -/
theorem node_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := Gen.N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e60, e61, -⟩ := block_index t
  refine ⟨t, Gen.flush1_6 t, ?_⟩
  rw [node_mem_block]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

section Arrays
variable (V : (c : Dev nD) → (b : Ref sig .tc) → Buf (Elt Ideal) ((c : Thread nD τ).loc b))

/-- THE FIRST RESULT ARRAY after the region: the node update of the whole arrays the region reads. -/
theorem node_final (c : Dev nD) :
    (Gen.dat1 (F := Ideal) V c).arrAt 6 cfg1.N = fun i => U V c (i 0) (i 1) :=
  (Gen.dat1 V c).arrAt_eq_of_cover 6 _ (fun t _ => node_flushed V c t) node_cover

end Arrays

/-! ## The column sums -/

/-- The body's stored column sums at `(0, 0, q)`: column `q` of the stored block summed over its 5000 rows. -/
theorem colsum_apply (x0 x1 : Vec Ideal S5000x64 .f32) (x2 : Vec Ideal S128x128 .f32) (x3 : Vec Ideal S1x128 .f32)
    (x4 : Vec Ideal S128x128 .f32) (x5 : Vec Ideal S1x128 .f32) (q : Fin 128) :
    Gen.k1_pay2 x0 x1 x2 x3 x4 x5 (ix3 (0 : Fin 1) (0 : Fin 1) q)
      = ∑ p : Fin 5000, blockUpd x0 x1 x2 x3 x4 x5 p q := by
  unfold Gen.k1_pay2
  dsimp only
  refine (shapeCast_ab_1ab_apply _ _ (0 : Fin 1) (0 : Fin 1) q).trans ?_
  refine (shapeCast_a_1a_apply _ _ (0 : Fin 1) q).trans ?_
  refine (Ideal.multiReduction_add_single (Gen.k1_pay1 x0 x1 x2 x3 x4 x5) 0x00000000#32 reduces_S5000x128_S128
    (.inl rfl) rfl (ix1 q)).trans ?_
  show ∑ k : Fin 5000, _ = _
  refine Finset.sum_congr rfl fun k _ => ?_
  refine (congrArg (Gen.k1_pay1 x0 x1 x2 x3 x4 x5) (funext fun a => Fin.ext ?_)).trans
    (stored_apply x0 x1 x2 x3 x4 x5 k q)
  match a with
  | ⟨0, _⟩ => rfl
  | ⟨1, _⟩ => rfl

section Arrays
variable (V : (c : Dev nD) → (b : Ref sig .tc) → Buf (Elt Ideal) ((c : Thread nD τ).loc b))

/-- Column `i 2` of the node update of the whole arrays summed over the 5000 rows of block `i 0`. -/
def blockSums (c : Dev nD) : S20x1x128.Idx → EReal :=
  fun i => ∑ p : Fin 5000, U V c (MsgNet.blockRow (i 0) p) (i 2)

/-- What point `t` writes back to the second result is its one row: the column sums of block `t` of the node update
    of the whole arrays. -/
theorem nodesum_flushed (c : Dev nD) (t : Fin cfg1.N) :
    (Gen.dat1 (F := Ideal) V c).flushed 7 t = ((cfg1.win 7).blk t).view.read (Elt Ideal) (blockSums V c) := by
  show (cfg1.win 7).cut (grid1.coords t) ((Gen.dat1 V c).after 7 t) = _
  rw [Gen.after1_7]
  unfold Gen.out1_7
  rw [View.canon_unit_zero zeros3]
  simp only [View.ld_unit_zero (S := S5000x64) zeros2, View.ld_unit_zero (S := S128x128) zeros2,
    View.ld_unit_zero (S := S1x128) zeros2]
  funext j
  obtain ⟨u, v, q, rfl⟩ : ∃ (u v : Fin 1) (q : Fin 128), j = ix3 u v q := ⟨j 0, j 1, j 2, eq_ix3 j⟩
  obtain rfl : u = 0 := Subsingleton.elim _ _
  obtain rfl : v = 0 := Subsingleton.elim _ _
  obtain ⟨-, -, -, -, -, -, -, -, -, -, -, -, -, -, e70, e71, e72⟩ := block_index t
  refine (colsum_apply _ _ _ _ _ _ q).trans ?_
  rw [View.read_apply]
  unfold blockSums
  refine Finset.sum_congr rfl fun p _ => ?_
  refine blockUpd_eq V c t p q _ _ ?_ (Fin.ext ?_)
  · show 5000 * (win1_7.index t (0 : Fin 3) * 1 + 1 * 0) + p.val = 5000 * t.val + p.val; omega
  · show q.val = win1_7.index t (2 : Fin 3) * 128 + 1 * q.val; omega

end Arrays

/-- An index of the second result array is in point `t`'s block iff each coordinate is in the block's range. -/
theorem nodesum_mem_block (t : Fin cfg1.N) (i : S20x1x128.Idx) :
    i ∈ ((cfg1.win 7).blk t).view.set ↔ ∀ a : Fin 3, win1_7.index t a * S1x1x128.size a ≤ (i a).val
      ∧ (i a).val < win1_7.index t a * S1x1x128.size a + S1x1x128.size a := by
  show i ∈ ((View.whole main_v20_1).slice (win1_7.rect t)).set ↔ _
  rw [View.set_slice_whole, Rect.mem_set_unit]
  exact Iff.rfl

/-- Row `(t, 0, ·)` of the second result array is point `t`'s block: the 20 rows tile the array. -/
theorem nodesum_cover (i : S20x1x128.Idx) :
    ∃ t : Fin cfg1.N, (cfg1.win 7).flush t = true ∧ i ∈ ((cfg1.win 7).blk t).view.set := by
  have hi0 : (i 0).val < 20 := (i 0).isLt
  have hi1 : (i 1).val < 1 := (i 1).isLt
  have hi2 : (i 2).val < 128 := (i 2).isLt
  have hN : cfg1.N = 20 := Gen.N_1
  obtain ⟨t, ht⟩ : ∃ t : Fin cfg1.N, t.val = (i 0).val := ⟨⟨(i 0).val, by rw [hN]; omega⟩, rfl⟩
  obtain ⟨-, -, -, -, -, -, -, -, -, -, -, -, -, -, e70, e71, e72⟩ := block_index t
  refine ⟨t, Gen.flush1_7 t, ?_⟩
  rw [nodesum_mem_block]
  intro a
  match a with
  | ⟨0, _⟩ =>
    show win1_7.index t (0 : Fin 3) * 1 ≤ (i 0).val ∧ (i 0).val < win1_7.index t (0 : Fin 3) * 1 + 1
    omega
  | ⟨1, _⟩ =>
    show win1_7.index t (1 : Fin 3) * 1 ≤ (i 1).val ∧ (i 1).val < win1_7.index t (1 : Fin 3) * 1 + 1
    omega
  | ⟨2, _⟩ =>
    show win1_7.index t (2 : Fin 3) * 128 ≤ (i 2).val ∧ (i 2).val < win1_7.index t (2 : Fin 3) * 128 + 128
    omega

section Arrays
variable (V : (c : Dev nD) → (b : Ref sig .tc) → Buf (Elt Ideal) ((c : Thread nD τ).loc b))

/-- THE SECOND RESULT ARRAY after the region: at `(t, 0, j)`, column `j` of the node update of the whole arrays
    summed over the 5000 rows of block `t`. -/
theorem nodesum_final (c : Dev nD) :
    (Gen.dat1 (F := Ideal) V c).arrAt 7 cfg1.N
      = fun i => ∑ p : Fin 5000, U V c (MsgNet.blockRow (i 0) p) (i 2) :=
  (Gen.dat1 V c).arrAt_eq_of_cover 7 (blockSums V c) (fun t _ => nodesum_flushed V c t) nodesum_cover

end Arrays

end Cert.KernelIdeal.NodeValue

end
-- ==== Proof.SqsumValue.lean ====
/-
  The sums of squared deviations the third region leaves, as one function of the arrays it reads.

  The region walks the 100000 rows of a 128-column matrix in 20 blocks of 5000 rows. At block t it subtracts a fixed
  128-entry row from every row of the block, squares, and sums over the block's 5000 rows; the 128 sums go to row
  (t, 0, ·) of a [20, 1, 128] array. Row p of block t is row 5000·t + p of the matrix, so entry (t, 0, q) of the result is
  ∑ p, (x (5000·t + p, q) − μ (0, q))², and the 20 rows written tile the result array.
-/
import proofs.«140201_j79508434583745_2_alg».proof.Proof.Gen.KernelIdeal.Frame
import proofs.«140201_j79508434583745_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.SqsumValue

open Cert.KernelIdeal Cert.KernelIdeal.Facts₀ Cert.KernelIdeal.Facts Idealize.ShloMosaic.ValueIdx

/-! ## The body at one entry -/

/-- A 128-vector viewed as a one-row matrix reads the vector at the column. -/
theorem vec_as_row_apply (z : FVec Ideal S128 .f32) (h : S128.ShapeCasts S1x128) (b : Fin 1) (q : Fin 128) :
    shapeCast S1x128 z h (ix2 b q) = z (ix1 q) :=
  (shapeCast_addUnit_apply ![128] z h (ix2 b q)).trans (congrArg z (funext fun c => by fin_cases c; rfl))

/-- A one-row matrix viewed as a one-row, one-plane array reads the matrix at the row and column. -/
theorem row_as_slab_apply (z : FVec Ideal S1x128 .f32) (h : S1x128.ShapeCasts S1x1x128) (a b : Fin 1) (q : Fin 128) :
    shapeCast S1x1x128 z h (ix3 a b q) = z (ix2 b q) :=
  (shapeCast_addUnit_apply ![1, 128] z h (ix3 a b q)).trans (congrArg z (funext fun c => by fin_cases c <;> rfl))

/-- The one row repeated over 5000 rows reads the row at the column. -/
theorem row_repeated_apply (z : FVec Ideal S1x128 .f32) (h : S1x128.Broadcasts S5000x128) (p : Fin 5000) (q : Fin 128) :
    broadcastTo S5000x128 z h (ix2 p q) = z (ix2 (0 : Fin 1) q) := by
  refine broadcastTo_apply z h (ix2 p q) (ix2 (0 : Fin 1) q) ?_
  intro a
  match a with
  | ⟨0, _⟩ => rfl
  | ⟨1, _⟩ => rfl

/-- The column index q with row k put back is (k, q). -/
theorem lift_col (h : S5000x128.Reduces [0] S128) (q : Fin 128) (k : Fin (S5000x128.size 0)) :
    h.lift (ix1 q) k = ix2 (⟨k.val, k.isLt⟩ : Fin 5000) q := by
  funext c; apply Fin.ext
  fin_cases c <;> rfl

/-- The sum over the 5000 rows of a 128-column matrix, at column q. -/
theorem colsum_apply (v : FVec Ideal S5000x128 .f32) (h : S5000x128.Reduces [0] S128) (hφ : FKind.Formats FTy.f32)
    (hacc : (0x00000000#32 : BitVec 32) = FKind.add.neutral FTy.f32 hφ) (q : Fin 128) :
    multiReduction (F := Ideal) .add [0] S128 v 0x00000000#32 h hφ hacc (ix1 q) = ∑ p : Fin 5000, v (ix2 p q) := by
  refine (Ideal.multiReduction_add_single v 0x00000000#32 h hφ hacc (ix1 q)).trans ?_
  show ∑ k : Fin 5000, v (h.lift (ix1 q) k) = ∑ p : Fin 5000, v (ix2 p q)
  refine Finset.sum_congr rfl fun k _ => ?_
  rw [lift_col h q k]

/-- The body's value at entry (·, ·, q): the sum over the block's rows of the squared difference from the row. -/
theorem pay_apply (x0 : Vec Ideal S5000x128 .f32) (x1 : Vec Ideal S1x128 .f32) (a b : Fin 1) (q : Fin 128) :
    Gen.k2_pay1 (F := Ideal) x0 x1 (ix3 a b q)
      = ∑ p : Fin 5000, (x0 (ix2 p q) - x1 (ix2 (0 : Fin 1) q)) * (x0 (ix2 p q) - x1 (ix2 (0 : Fin 1) q)) := by
  unfold Gen.k2_pay1
  dsimp only
  refine (row_as_slab_apply _ _ a b q).trans ?_
  refine (vec_as_row_apply _ _ b q).trans ?_
  refine (colsum_apply _ _ _ _ q).trans ?_
  refine Finset.sum_congr rfl fun p _ => ?_
  rw [mulf_apply, subf_apply, shapeCast_self, row_repeated_apply, shapeCast_self]

/-! ## The blocks -/

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The block indices over the grid: at point t the matrix's block is row block t, the row's block is the whole row,
    and the result's block is row t. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

variable (V : (c : Dev nD) → (b : Ref sig .tc) → Buf (Elt Ideal) ((c : Thread nD τ).loc b))

/-- Row p, column q of the matrix's block at point t is row 5000·t + p, column q of the matrix. -/
theorem matrix_block_apply (c : Dev nD) (t : Fin cfg2.N) (p : Fin 5000) (q : Fin 128) (k : S100000x128.Idx)
    (h0 : (k 0).val = 5000 * t.val + p.val) (h1 : (k 1).val = q.val) :
    (Gen.iblk2 (F := Ideal) V c 0 t : Vec Ideal S5000x128 .f32) (ix2 p q) = (V c main_v20_0 : FVec Ideal S100000x128 .f32) k := by
  obtain ⟨e0, e1, -⟩ := block_indices t
  unfold Gen.iblk2
  rw [View.read_apply]
  show V c main_v20_0 _ = V c main_v20_0 _
  congr 1
  funext a
  apply Fin.ext
  match a with
  | ⟨0, _⟩ => show win2_0.index t (0 : Fin 2) * 5000 + 1 * p.val = (k 0).val; omega
  | ⟨1, _⟩ => show win2_0.index t (1 : Fin 2) * 128 + 1 * q.val = (k 1).val; omega

/-- The row's block at any point is the row. -/
theorem row_block_apply (c : Dev nD) (t : Fin cfg2.N) (q : Fin 128) (k : S1x128.Idx) (h1 : (k 1).val = q.val) :
    (Gen.iblk2 (F := Ideal) V c 1 t : Vec Ideal S1x128 .f32) (ix2 (0 : Fin 1) q) = (V c main_v25 : FVec Ideal S1x128 .f32) k := by
  obtain ⟨-, -, e2, e3, -⟩ := block_indices t
  have hk0 : (k 0).val < 1 := (k 0).isLt
  unfold Gen.iblk2
  rw [View.read_apply]
  show V c main_v25 _ = V c main_v25 _
  congr 1
  funext a
  apply Fin.ext
  match a with
  | ⟨0, _⟩ => show win2_1.index t (0 : Fin 2) * 1 + 1 * 0 = (k 0).val; omega
  | ⟨1, _⟩ => show win2_1.index t (1 : Fin 2) * 128 + 1 * q.val = (k 1).val; omega

/-- The result as one function of the matrix x and the row μ: entry (t, ·, q) is the sum, over the 5000 rows of row block
    t, of the squared difference between the matrix's entry in column q and the row's entry there. -/
abbrev sqsum (x : FVec Ideal S100000x128 .f32) (μ : FVec Ideal S1x128 .f32) : FVec Ideal S20x1x128 .f32 :=
  fun i => ∑ p : Fin 5000,
    (x (ix2 (Cert.MsgNet.blockRow (i 0) p) (i 2)) - μ (ix2 (0 : Fin 1) (i 2)))
      * (x (ix2 (Cert.MsgNet.blockRow (i 0) p) (i 2)) - μ (ix2 (0 : Fin 1) (i 2)))

theorem sqsum_apply (x : FVec Ideal S100000x128 .f32) (μ : FVec Ideal S1x128 .f32) (i : S20x1x128.Idx) :
    sqsum x μ i = ∑ p : Fin 5000,
      (x (ix2 (Cert.MsgNet.blockRow (i 0) p) (i 2)) - μ (ix2 (0 : Fin 1) (i 2)))
        * (x (ix2 (Cert.MsgNet.blockRow (i 0) p) (i 2)) - μ (ix2 (0 : Fin 1) (i 2))) := rfl

/-- What point t writes back is block t of the sums of squared deviations of the two arrays the region reads. -/
theorem flushed_eq (c : Dev nD) (t : Fin cfg2.N) :
    (Gen.dat2 (F := Ideal) V c).flushed 2 t
      = ((cfg2.win 2).blk t).view.read (Elt Ideal) (sqsum (V c main_v20_0) (V c main_v25)) := by
  show (cfg2.win 2).cut (grid2.coords t) ((Gen.dat2 V c).after 2 t) = _
  rw [Gen.after2_2]
  unfold Gen.out2_2
  rw [View.canon_unit_zero zero_offsets3]
  simp only [View.ld_unit_zero (S := S5000x128) zero_offsets2, View.ld_unit_zero (S := S1x128) zero_offsets2]
  obtain ⟨-, -, -, -, e4, e5, e6⟩ := block_indices t
  refine funext fun (j : S1x1x128.Idx) => ?_
  obtain ⟨a, b, q, rfl⟩ : ∃ (a b : Fin 1) (q : Fin 128), j = ix3 a b q := ⟨j 0, j 1, j 2, eq_ix3 j⟩
  have ha : a.val < 1 := a.isLt
  show Gen.k2_pay1 (F := Ideal) (Gen.iblk2 V c 0 t) (Gen.iblk2 V c 1 t) (ix3 a b q)
    = sqsum (V c main_v20_0) (V c main_v25) (((cfg2.win 2).blk t).view.emb (ix3 a b q))
  refine (pay_apply (Gen.iblk2 V c 0 t) (Gen.iblk2 V c 1 t) a b q).trans ?_
  show _ = ∑ p : Fin 5000, _
  refine Finset.sum_congr rfl fun p _ => ?_
  refine congrArg₂ (fun u v : EReal => (u - v) * (u - v))
    (matrix_block_apply V c t p q _ ?_ ?_) (row_block_apply V c t q _ ?_)
  · show 5000 * (win2_2.index t (0 : Fin 3) * 1 + 1 * a.val) + p.val = 5000 * t.val + p.val
    omega
  · show win2_2.index t (2 : Fin 3) * 128 + 1 * q.val = q.val
    omega
  · show win2_2.index t (2 : Fin 3) * 128 + 1 * q.val = q.val
    omega

/-- An entry of the result array is in point t's block iff each coordinate is in the block's range on its axis. -/
theorem mem_block (t : Fin cfg2.N) (i : S20x1x128.Idx) :
    i ∈ ((cfg2.win 2).blk t).view.set ↔ ∀ a : Fin 3, win2_2.index t a * S1x1x128.size a ≤ (i a).val
      ∧ (i a).val < win2_2.index t a * S1x1x128.size a + S1x1x128.size a := by
  show i ∈ ((View.whole main_v26).slice (win2_2.rect t)).set ↔ _
  rw [View.set_slice_whole, Rect.mem_set_unit]
  exact Iff.rfl

/-- The 20 rows written tile the result array: entry (r, ·, ·) is in the block of point r. -/
theorem covered (i : S20x1x128.Idx) :
    ∃ t : Fin cfg2.N, (cfg2.win 2).flush t = true ∧ i ∈ ((cfg2.win 2).blk t).view.set := by
  have h0 : (i 0).val < 20 := (i 0).isLt
  have h1 : (i 1).val < 1 := (i 1).isLt
  have h2 : (i 2).val < 128 := (i 2).isLt
  obtain ⟨-, -, -, -, e4, e5, e6⟩ := block_indices ⟨(i 0).val, h0⟩
  refine ⟨⟨(i 0).val, h0⟩, Gen.flush2_2 _, ?_⟩
  rw [mem_block]
  intro a
  match a with
  | ⟨0, _⟩ =>
    show win2_2.index ⟨(i 0).val, h0⟩ (0 : Fin 3) * 1 ≤ (i 0).val ∧ (i 0).val < win2_2.index ⟨(i 0).val, h0⟩ (0 : Fin 3) * 1 + 1
    have e : win2_2.index ⟨(i 0).val, h0⟩ (0 : Fin 3) = (i 0).val := e4
    omega
  | ⟨1, _⟩ =>
    show win2_2.index ⟨(i 0).val, h0⟩ (1 : Fin 3) * 1 ≤ (i 1).val ∧ (i 1).val < win2_2.index ⟨(i 0).val, h0⟩ (1 : Fin 3) * 1 + 1
    omega
  | ⟨2, _⟩ =>
    show win2_2.index ⟨(i 0).val, h0⟩ (2 : Fin 3) * 128 ≤ (i 2).val ∧ (i 2).val < win2_2.index ⟨(i 0).val, h0⟩ (2 : Fin 3) * 128 + 128
    omega

/-- The array the region leaves in its result window: the sums of squared deviations, block row by block row, of the
    two arrays it reads. -/
theorem sqsum_final (c : Dev nD) :
    (Gen.dat2 (F := Ideal) V c).arrAt 2 cfg2.N = sqsum (V c main_v20_0) (V c main_v25) :=
  (Gen.dat2 (F := Ideal) V c).arrAt_eq_of_cover 2 (sqsum (V c main_v20_0) (V c main_v25))
    (fun t _ => flushed_eq V c t) covered

end Cert.KernelIdeal.SqsumValue

end
-- ==== Proof.NormValue.lean ====
/-
  The scaling kernel of the batch normalisation, read as ONE function of its five input arrays: every entry of its
  [100000, 128] output is the input entry, minus its column's entry of the first row operand, times the inverse square
  root of (the second row operand's entry plus the small constant), times the third row operand's entry, plus the
  fourth's.

  The kernel is a grid of 20 points, point t working on rows 5000·t … 5000·t + 4999.  At each point the body's result is
  read entry by entry (the four [1, 128] row operands are broadcast over the block's 5000 rows), each input block's entry
  is located in its array (a block's coordinate is its block index times the block size plus the coordinate inside the
  block), and the 20 blocks written back fill the output array.
-/
import proofs.«140201_j79508434583745_2_alg».proof.Proof.Gen.KernelIdeal.Frame
import proofs.«140201_j79508434583745_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormValue

open Cert.KernelIdeal Cert.KernelIdeal.Facts₀ Cert.KernelIdeal.Facts
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two-axis zero offset, however its zeros are spelt. -/
theorem zero_pair : (![0, 0] : Fin 2 → Nat) = fun _ => 0 := funext fun a => by fin_cases a <;> rfl

/-- A [1, 128] row broadcast over 5000 rows, read at (p, q), is the row's entry at q. -/
theorem row_bcast (x : FVec Ideal S1x128 .f32) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-! ## The scaling kernel -/

/-- The body's result at (p, q): the block's entry centred, scaled by the inverse square root, scaled and shifted. -/
theorem scale_pay_apply (v0 : Vec Ideal S1x128 .f32) (v5 : Vec Ideal S5000x128 .f32) (v7 v13 v17 : Vec Ideal S1x128 .f32)
    (p : Fin 5000) (q : Fin 128) :
    Gen.k3_pay1 v0 v5 v7 v13 v17 (ix2 p q)
      = (v5 (ix2 p q) - v7 (ix2 0 q)) * Ideal.rsqrt (v0 (ix2 0 q) + Cert.MsgNet.eps) * v13 (ix2 0 q) + v17 (ix2 0 q) := by
  unfold Gen.k3_pay1
  simp only [shapeCast_self]
  rw [addf_apply, mulf_apply, mulf_apply, subf_apply, row_bcast, row_bcast, row_bcast, row_bcast]
  rfl

/-- The body's stored block at (p, q), from the five loaded blocks. -/
theorem scale_out_apply (x0 : Vec Ideal S5000x128 .f32) (x1 x2 x3 x4 : Vec Ideal S1x128 .f32) (p : Fin 5000) (q : Fin 128) :
    Gen.out3_5 x0 x1 x2 x3 x4 (ix2 p q)
      = (x0 (ix2 p q) - x1 (ix2 0 q)) * Ideal.rsqrt (x2 (ix2 0 q) + Cert.MsgNet.eps) * x3 (ix2 0 q) + x4 (ix2 0 q) := by
  unfold Gen.out3_5
  rw [View.canon_unit_zero zero_pair]
  simp only [View.ld_unit_zero (S := S5000x128) zero_pair, View.ld_unit_zero (S := S1x128) zero_pair]
  exact scale_pay_apply x2 x0 x1 x3 x4 p q

/-- The index maps over the 20 grid points: the two [5000, 128] windows sit at row block t, column block 0; the four
    row operands' windows at block (0, 0). -/
theorem scale_idx : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Entry j of the input block at point t is the array's entry at row 5000·t + j₀, column j₁. -/
theorem scale_blk0 (c : Dev nD) (t : Fin cfg3.N) (j : S5000x128.Idx) (k : S100000x128.Idx)
    (hk0 : (k 0).val = 5000 * t.val + (j 0).val) (hk1 : (k 1).val = (j 1).val) :
    (Gen.iblk3 V c 0 t : Vec Ideal S5000x128 .f32) j = V c main_v20_0 k := by
  obtain ⟨e0, e1, -⟩ := scale_idx t
  unfold Gen.iblk3
  rw [View.read_apply]
  show V c main_v20_0 _ = V c main_v20_0 _
  congr 1
  funext a
  apply Fin.ext
  match a with
  | ⟨0, _⟩ => show win3_0.index t (0 : Fin 2) * 5000 + 1 * (j 0).val = (k 0).val; omega
  | ⟨1, _⟩ => show win3_0.index t (1 : Fin 2) * 128 + 1 * (j 1).val = (k 1).val; omega

/-- Each row operand's block, at every point, is the whole [1, 128] array. -/
theorem scale_row1 (c : Dev nD) (t : Fin cfg3.N) (j : S1x128.Idx) :
    (Gen.iblk3 V c 1 t : Vec Ideal S1x128 .f32) j = V c main_v31 j := by
  obtain ⟨-, -, -, -, e0, e1, -⟩ := scale_idx t
  unfold Gen.iblk3
  rw [View.read_apply]
  show V c main_v31 _ = V c main_v31 _
  congr 1
  funext a
  apply Fin.ext
  match a with
  | ⟨0, _⟩ => show win3_1.index t (0 : Fin 2) * 1 + 1 * (j 0).val = (j 0).val; omega
  | ⟨1, _⟩ => show win3_1.index t (1 : Fin 2) * 128 + 1 * (j 1).val = (j 1).val; omega

theorem scale_row2 (c : Dev nD) (t : Fin cfg3.N) (j : S1x128.Idx) :
    (Gen.iblk3 V c 2 t : Vec Ideal S1x128 .f32) j = V c main_v32 j := by
  obtain ⟨-, -, -, -, -, -, e0, e1, -⟩ := scale_idx t
  unfold Gen.iblk3
  rw [View.read_apply]
  show V c main_v32 _ = V c main_v32 _
  congr 1
  funext a
  apply Fin.ext
  match a with
  | ⟨0, _⟩ => show win3_2.index t (0 : Fin 2) * 1 + 1 * (j 0).val = (j 0).val; omega
  | ⟨1, _⟩ => show win3_2.index t (1 : Fin 2) * 128 + 1 * (j 1).val = (j 1).val; omega

theorem scale_row3 (c : Dev nD) (t : Fin cfg3.N) (j : S1x128.Idx) :
    (Gen.iblk3 V c 3 t : Vec Ideal S1x128 .f32) j = V c main_v33 j := by
  obtain ⟨-, -, -, -, -, -, -, -, e0, e1, -⟩ := scale_idx t
  unfold Gen.iblk3
  rw [View.read_apply]
  show V c main_v33 _ = V c main_v33 _
  congr 1
  funext a
  apply Fin.ext
  match a with
  | ⟨0, _⟩ => show win3_3.index t (0 : Fin 2) * 1 + 1 * (j 0).val = (j 0).val; omega
  | ⟨1, _⟩ => show win3_3.index t (1 : Fin 2) * 128 + 1 * (j 1).val = (j 1).val; omega

theorem scale_row4 (c : Dev nD) (t : Fin cfg3.N) (j : S1x128.Idx) :
    (Gen.iblk3 V c 4 t : Vec Ideal S1x128 .f32) j = V c main_v34 j := by
  obtain ⟨-, -, -, -, -, -, -, -, -, -, e0, e1⟩ := scale_idx t
  unfold Gen.iblk3
  rw [View.read_apply]
  show V c main_v34 _ = V c main_v34 _
  congr 1
  funext a
  apply Fin.ext
  match a with
  | ⟨0, _⟩ => show win3_4.index t (0 : Fin 2) * 1 + 1 * (j 0).val = (j 0).val; omega
  | ⟨1, _⟩ => show win3_4.index t (1 : Fin 2) * 128 + 1 * (j 1).val = (j 1).val; omega

/-- The scaling kernel's output as one function of its five input arrays, entry by entry. -/
abbrev scaleG (o : S100000x128.Idx → EReal) (mu va ga be : S1x128.Idx → EReal) : S100000x128.Idx → EReal := fun i =>
  (o (ix2 (i 0) (i 1)) - mu (ix2 0 (i 1))) * Ideal.rsqrt (va (ix2 0 (i 1)) + Cert.MsgNet.eps) * ga (ix2 0 (i 1))
    + be (ix2 0 (i 1))

/-- That function of the five arrays as the kernel finds them. -/
abbrev scaleOf (c : Dev nD) : S100000x128.Idx → EReal :=
  scaleG (V c main_v20_0) (V c main_v31) (V c main_v32) (V c main_v33) (V c main_v34)

/-- What point t stores at (p, q) is that function at row r = 5000·t + p, column q. -/
theorem scale_point (c : Dev nD) (t : Fin cfg3.N) (p : Fin 5000) (q : Fin 128) (r : Fin 100000) (hr : r.val = 5000 * t.val + p.val) :
    Gen.out3_5 (Gen.iblk3 V c 0 t) (Gen.iblk3 V c 1 t) (Gen.iblk3 V c 2 t) (Gen.iblk3 V c 3 t) (Gen.iblk3 V c 4 t) (ix2 p q)
      = scaleOf V c (ix2 r q) := by
  rw [scale_out_apply, scale_blk0 V c t (ix2 p q) (ix2 r q) hr rfl, scale_row1, scale_row2, scale_row3, scale_row4]

/-- What point t writes back is block t of that function. -/
theorem scale_flushed (c : Dev nD) (t : Fin cfg3.N) :
    (Gen.dat3 (F := Ideal) V c).flushed 5 t = ((cfg3.win 5).blk t).view.read (Elt Ideal) (scaleOf V c) := by
  show (cfg3.win 5).cut (grid3.coords t) ((Gen.dat3 V c).after 5 t) = _
  rw [Gen.after3_5]
  obtain ⟨-, -, e50, e51, -⟩ := scale_idx t
  have hN : t.val < 20 := by have := t.isLt; have e : cfg3.N = 20 := Gen.N_3; omega
  funext j
  rw [View.read_apply]
  have h0 : (j 0).val < 5000 := (j 0).isLt
  have h1 : (j 1).val < 128 := (j 1).isLt
  have hj : (j : S5000x128.Idx) = ix2 (j 0) (j 1) := eq_ix2 j
  refine ((congrArg (Gen.out3_5 (Gen.iblk3 V c 0 t) (Gen.iblk3 V c 1 t) (Gen.iblk3 V c 2 t) (Gen.iblk3 V c 3 t) (Gen.iblk3 V c 4 t)) hj).trans
    (scale_point V c t (j 0) (j 1) ⟨5000 * t.val + (j 0).val, by omega⟩ rfl)).trans ?_
  refine congrArg (scaleOf V c) (funext fun a => Fin.ext ?_)
  match a with
  | ⟨0, _⟩ => show 5000 * t.val + (j 0).val = win3_5.index t (0 : Fin 2) * 5000 + 1 * (j 0).val; omega
  | ⟨1, _⟩ => show (j 1).val = win3_5.index t (1 : Fin 2) * 128 + 1 * (j 1).val; omega

/-- Every index of the output array is in the block of the point its row falls in. -/
theorem scale_cover (i : S100000x128.Idx) :
    ∃ t : Fin cfg3.N, (cfg3.win 5).flush t = true ∧ i ∈ ((cfg3.win 5).blk t).view.set := by
  have h0 : (i 0).val < 100000 := (i 0).isLt
  have h1 : (i 1).val < 128 := (i 1).isLt
  have hlt : (i 0).val / 5000 < cfg3.N := by have e : cfg3.N = 20 := Gen.N_3; omega
  obtain ⟨-, -, e50, e51, -⟩ := scale_idx ⟨(i 0).val / 5000, hlt⟩
  refine ⟨⟨(i 0).val / 5000, hlt⟩, Gen.flush3_5 _, ?_⟩
  show i ∈ ((View.whole main_v35).slice (win3_5.rect ⟨(i 0).val / 5000, hlt⟩)).set
  rw [View.set_slice_whole, Rect.mem_set_unit]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    rw [e51]; omega

/-- THE SCALING KERNEL'S OUTPUT ARRAY: entry (r, q) is the input's entry centred by the first row operand, scaled by the
    inverse square root of the second plus the small constant, scaled by the third and shifted by the fourth. -/
theorem scale_final (c : Dev nD) : (Gen.dat3 (F := Ideal) V c).arrAt 5 cfg3.N
    = scaleG (V c main_v20_0) (V c main_v31) (V c main_v32) (V c main_v33) (V c main_v34) :=
  (Gen.dat3 (F := Ideal) V c).arrAt_eq_of_cover 5 (scaleOf V c) (fun t _ => scale_flushed V c t) scale_cover

end Cert.KernelIdeal.NormValue

end
-- ==== Proof.RefRun.lean ====
/-
  The reference program's run, read back as a fold.

  The program is a straight line of whole-array operations once its module-local functions (the two positive parts
  over the edges, the positive part over the nodes, the column variance and, inside it, the guarded choice) are
  substituted at their call sites: ninety-three operations, each writing one buffer of its own from buffers written
  before it. So every buffer ends at the composition of the operations that lead to it, applied to the launch
  contents of the argument buffers; the argument buffers are written by no operation and keep their contents.

  At the extended reals that composition, read at the result buffer, is stage by stage the message-passing layer
  followed by the batch normalisation over the node axis: the edge messages, their sum into the destination nodes,
  the node update with its residual, the column mean, the biased column variance, and the normalisation with a
  per-column scale and shift.
-/
import proofs.«140201_j79508434583745_2_alg».proof.Proof.Gen.ReferenceIdeal
import proofs.«140201_j79508434583745_2_alg».proof.Proof.RefStages
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

/-- The program's ninety-three operations in order, each function's body written out where it is called, over that
    call's own buffers: the positive part is three operations (the scalar zero, its repetition over the array, the
    maximum); the column variance is nineteen followed by the guarded choice's three (the not-a-number scalar at its
    own type, its repetition over the columns, the choice). -/
abbrev ops : List (HloOp τ sig (Elt F)) :=
  [
    unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v10 main_arg1 main_v11 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)),
    unary main_arg4 main_v12 ((transpose S128x64 [1, 0] · transposes_S64x128_S128x64_1_0) : (⟨S64x128, .f32⟩ : BufTy).Contents (Elt F) → (⟨S128x64, .f32⟩ : BufTy).Contents (Elt F)),
    binary main_v11 main_v12 main_v13 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg5 main_v14 (broadcastInDim S1x64 ![1] bcast_S64_S1x64_1 : (⟨S64, .f32⟩ : BufTy).Contents (Elt F) → (⟨S1x64, .f32⟩ : BufTy).Contents (Elt F)),
    unary main_v14 main_v15 (broadcastInDim S1600000x64 ![0, 1] bcast_S1x64_S1600000x64_0_1 : (⟨S1x64, .f32⟩ : BufTy).Contents (Elt F) → (⟨S1600000x64, .f32⟩ : BufTy).Contents (Elt F)),
    binary main_v13 main_v15 main_v16 (addf : (⟨S1600000x64, .f32⟩ : BufTy).Contents (Elt F) → (⟨S1600000x64, .f32⟩ : BufTy).Contents (Elt F) → (⟨S1600000x64, .f32⟩ : BufTy).Contents (Elt F)),
    TRef.nullary main_call0.cst (constant S_ .f32 0x00000000#32),
    TRef.unary main_call0.cst main_call0.v0 (broadcastInDim S1600000x64 ![] bcast_S_S1600000x64),
    TRef.binary (.of main_v16 : TRef sig ⟨S1600000x64, .f32⟩) main_call0.v0 main_call0.v1 maximumf,
    unary main_arg6 main_v18 ((transpose S64x64 [1, 0] · transposes_S64x64_S64x64_1_0) : (⟨S64x64, .f32⟩ : BufTy).Contents (Elt F) → (⟨S64x64, .f32⟩ : BufTy).Contents (Elt F)),
    binary main_v17 main_v18 main_v19 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg7 main_v20 (broadcastInDim S1x64 ![1] bcast_S64_S1x64_1 : (⟨S64, .f32⟩ : BufTy).Contents (Elt F) → (⟨S1x64, .f32⟩ : BufTy).Contents (Elt F)),
    unary main_v20 main_v21 (broadcastInDim S1600000x64 ![0, 1] bcast_S1x64_S1600000x64_0_1 : (⟨S1x64, .f32⟩ : BufTy).Contents (Elt F) → (⟨S1600000x64, .f32⟩ : BufTy).Contents (Elt F)),
    binary main_v19 main_v21 main_v22 (addf : (⟨S1600000x64, .f32⟩ : BufTy).Contents (Elt F) → (⟨S1600000x64, .f32⟩ : BufTy).Contents (Elt F) → (⟨S1600000x64, .f32⟩ : BufTy).Contents (Elt F)),
    TRef.nullary main_call1.cst (constant S_ .f32 0x00000000#32),
    TRef.unary main_call1.cst main_call1.v0 (broadcastInDim S1600000x64 ![] bcast_S_S1600000x64),
    TRef.binary (.of main_v22 : TRef sig ⟨S1600000x64, .f32⟩) main_call1.v0 main_call1.v1 maximumf,
    nullary main_cst (constant S_ .f32 0x00000000#32),
    unary main_cst main_v24 (broadcastInDim S100000x64 ![] bcast_S_S100000x64 : (⟨S_, .f32⟩ : BufTy).Contents (Elt F) → (⟨S100000x64, .f32⟩ : BufTy).Contents (Elt F)),
    unary main_v3 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v26 main_v27 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg8 main_v28 ((transpose S128x128 [1, 0] · transposes_S128x128_S128x128_1_0) : (⟨S128x128, .f32⟩ : BufTy).Contents (Elt F) → (⟨S128x128, .f32⟩ : BufTy).Contents (Elt F)),
    binary main_v27 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v32 : TRef sig ⟨S100000x128, .f32⟩) main_call2.v0 main_call2.v1 maximumf,
    unary main_arg10 main_v34 ((transpose S128x128 [1, 0] · transposes_S128x128_S128x128_1_0) : (⟨S128x128, .f32⟩ : BufTy).Contents (Elt F) → (⟨S128x128, .f32⟩ : BufTy).Contents (Elt F)),
    binary main_v33 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    binary main_v38 main_v27 main_v39 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v39 main_cst_1 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v41 (broadcastInDim S128 ![] bcast_S_S128 : (⟨S_, .f32⟩ : BufTy).Contents (Elt F) → (⟨S128, .f32⟩ : BufTy).Contents (Elt F)),
    binary main_v40 main_v41 main_v42 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call3.cst (constant S_ .f32 0x00000000#32),
    TRef.binary (.of main_v39 : TRef sig ⟨S100000x128, .f32⟩) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v39 : TRef sig ⟨S100000x128, .f32⟩) main_call3.v4 main_call3.v5 subf,
    TRef.binary main_call3.v5 main_call3.v5 main_call3.v6 mulf,
    TRef.unary (.of main_c_3 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v42 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v39 main_v45 main_v46 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v47 (broadcastInDim S128 ![] bcast_S_S128 : (⟨S_, .f32⟩ : BufTy).Contents (Elt F) → (⟨S128, .f32⟩ : BufTy).Contents (Elt F)),
    binary main_v43 main_v47 main_v48 (addf : (⟨S128, .f32⟩ : BufTy).Contents (Elt F) → (⟨S128, .f32⟩ : BufTy).Contents (Elt F) → (⟨S128, .f32⟩ : BufTy).Contents (Elt F)),
    unary main_v48 main_v49 (Host.rsqrt : (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v46 main_v51 main_v52 (mulf : (⟨S100000x128, .f32⟩ : BufTy).Contents (Elt F) → (⟨S100000x128, .f32⟩ : BufTy).Contents (Elt F) → (⟨S100000x128, .f32⟩ : BufTy).Contents (Elt F)),
    unary main_arg12 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (mulf : (⟨S100000x128, .f32⟩ : BufTy).Contents (Elt F) → (⟨S100000x128, .f32⟩ : BufTy).Contents (Elt F) → (⟨S100000x128, .f32⟩ : BufTy).Contents (Elt F)),
    unary main_arg13 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)) ]

-- ninety-three sequencing steps re-associated, one recursion per statement
set_option maxRecDepth 4096 in
set_option maxHeartbeats 4000000 in
/-- The program is that straight line: with the two windows of its body and the functions' bodies written out, and
    sequencing re-associated to the right, both sides are the same chain of steps. -/
theorem main_eq (c : Dev nD) : main (F := F) c = seq ops := by
  simp only [main, main_part0, main_part1, fn_relu.body, fn_relu_0.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., unary_bufs_sub .., ternary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub ..⟩

/-- At the compiled mesh, for any float values, from any memory with zero counters: every weakly fair execution of
    the program on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd Host.reduceAdd concatenate transpose in
set_option maxRecDepth 8192 in
set_option maxHeartbeats 4000000 in
/-- At the extended reals the fold, read at the result buffer, is the layer's composed stages of the argument
    contents. Each operation's result at its own buffer is its function of its operands' contents, and any other
    buffer keeps what it held; a value moved between a function's carried type and its buffer's type moves along a
    reflexive equation, the identity. What is left on both sides is one and the same composition of whole-array
    operations. The gather, the scatter-sum, the column sums, the joins and the transpositions are kept folded: the
    equation never looks inside them. -/
theorem result_eq (V : Valuation τ sig (Elt Ideal)) :
    after (ops (F := Ideal)) V (main_v58 : DevRef τ sig)
      = Stages.result (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rfl

/-- No operation writes argument 0's buffer. -/
theorem arg0_eq (V : Valuation τ sig (Elt F)) :
    after (ops (F := F)) V (main_arg0 : DevRef τ sig) = V (main_arg0 : DevRef τ sig) := by
  after_results_simp

/-- No operation writes argument 1's buffer. -/
theorem arg1_eq (V : Valuation τ sig (Elt F)) :
    after (ops (F := F)) V (main_arg1 : DevRef τ sig) = V (main_arg1 : DevRef τ sig) := by
  after_results_simp

/-- No operation writes argument 2's buffer. -/
theorem arg2_eq (V : Valuation τ sig (Elt F)) :
    after (ops (F := F)) V (main_arg2 : DevRef τ sig) = V (main_arg2 : DevRef τ sig) := by
  after_results_simp

/-- No operation writes argument 3's buffer. -/
theorem arg3_eq (V : Valuation τ sig (Elt F)) :
    after (ops (F := F)) V (main_arg3 : DevRef τ sig) = V (main_arg3 : DevRef τ sig) := by
  after_results_simp

/-- No operation writes argument 4's buffer. -/
theorem arg4_eq (V : Valuation τ sig (Elt F)) :
    after (ops (F := F)) V (main_arg4 : DevRef τ sig) = V (main_arg4 : DevRef τ sig) := by
  after_results_simp

/-- No operation writes argument 5's buffer. -/
theorem arg5_eq (V : Valuation τ sig (Elt F)) :
    after (ops (F := F)) V (main_arg5 : DevRef τ sig) = V (main_arg5 : DevRef τ sig) := by
  after_results_simp

/-- No operation writes argument 6's buffer. -/
theorem arg6_eq (V : Valuation τ sig (Elt F)) :
    after (ops (F := F)) V (main_arg6 : DevRef τ sig) = V (main_arg6 : DevRef τ sig) := by
  after_results_simp

/-- No operation writes argument 7's buffer. -/
theorem arg7_eq (V : Valuation τ sig (Elt F)) :
    after (ops (F := F)) V (main_arg7 : DevRef τ sig) = V (main_arg7 : DevRef τ sig) := by
  after_results_simp

/-- No operation writes argument 8's buffer. -/
theorem arg8_eq (V : Valuation τ sig (Elt F)) :
    after (ops (F := F)) V (main_arg8 : DevRef τ sig) = V (main_arg8 : DevRef τ sig) := by
  after_results_simp

/-- No operation writes argument 9's buffer. -/
theorem arg9_eq (V : Valuation τ sig (Elt F)) :
    after (ops (F := F)) V (main_arg9 : DevRef τ sig) = V (main_arg9 : DevRef τ sig) := by
  after_results_simp

/-- No operation writes argument 10's buffer. -/
theorem arg10_eq (V : Valuation τ sig (Elt F)) :
    after (ops (F := F)) V (main_arg10 : DevRef τ sig) = V (main_arg10 : DevRef τ sig) := by
  after_results_simp

/-- No operation writes argument 11's buffer. -/
theorem arg11_eq (V : Valuation τ sig (Elt F)) :
    after (ops (F := F)) V (main_arg11 : DevRef τ sig) = V (main_arg11 : DevRef τ sig) := by
  after_results_simp

/-- No operation writes argument 12's buffer. -/
theorem arg12_eq (V : Valuation τ sig (Elt F)) :
    after (ops (F := F)) V (main_arg12 : DevRef τ sig) = V (main_arg12 : DevRef τ sig) := by
  after_results_simp

/-- No operation writes argument 13's buffer. -/
theorem arg13_eq (V : Valuation τ sig (Elt F)) :
    after (ops (F := F)) V (main_arg13 : DevRef τ sig) = V (main_arg13 : DevRef τ sig) := by
  after_results_simp

/-- On every device, at the extended reals, from any memory with zero counters: every weakly fair execution of the
    program terminates with the result buffer at the layer's composed stages of the arguments' launch contents, and
    every argument buffer unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58)
        = Stages.result (m ((c.tc : Thread nD τ).loc main_arg0))
            (m ((c.tc : Thread nD τ).loc main_arg1))
            (m ((c.tc : Thread nD τ).loc main_arg2))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v58).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

end Cert.ReferenceIdeal.RefRun

end
-- ==== Proof.RefAffine.lean ====
/-
  The reference's affine layers read entry by entry.

  Each affine layer of the reference is a product of a row-indexed matrix with the transpose of a weight matrix, plus
  the bias repeated over the rows. Read at row r and column k this is (∑ l, z r l * W k l) + b k: the contraction over
  the one shared axis is a plain finite sum, the transpose swaps the two coordinates of the weight, and the repeated
  bias reads the bias at the column. A maximum with the zero matrix reads as max · 0, and two 64-column matrices set
  side by side read the first matrix on columns below 64 and the second, 64 columns back, from column 64 on.
  Assembling these readings gives the edge messages and the node update as the specification's msg and upd.
-/
import proofs.«140201_j79508434583745_2_alg».proof.Proof.RefStages
import proofs.«140201_j79508434583745_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

open scoped BigOperators

namespace Cert.ReferenceIdeal.RefValue

open Cert.ReferenceIdeal Cert.ReferenceIdeal.Facts₀ Cert.ReferenceIdeal.Facts Idealize.ShloMosaic Idealize.ShloMosaic.ValueIdx

/-! ## One operation at one entry -/

/-- A product of an m×K matrix by a K×n matrix, contracting the first's columns against the second's rows, read at
    (a, b), is the sum over the shared coordinate of the products of the entries. -/
theorem dot_rows_cols_apply {m K n : Nat} {φ₁ φ₂ : FTy}
    (w : DotDims.WF ⟨2, ![m, K]⟩ ⟨2, ![K, n]⟩ ⟨2, ![m, n]⟩ [1] [0] [0] [1] [] [])
    (prec : Option ContractPrecision) (A : FVec Ideal ⟨2, ![m, K]⟩ φ₁) (B : FVec Ideal ⟨2, ![K, n]⟩ φ₂)
    (a : Fin m) (b : Fin n) :
    Host.dotGeneral (⟨[1], [0], [0], [1], [], [], w⟩ : DotDims _ _ _) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![m, K]⟩ ⟨2, ![K, n]⟩ ⟨2, ![m, n]⟩) K rfl rfl c
  have l2 : (⟨[1], [0], [0], [1], [], [], w⟩ : DotDims ⟨2, ![m, K]⟩ ⟨2, ![K, n]⟩ ⟨2, ![m, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, K]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The transpose of an m×n matrix at (a, b) is the matrix at (b, a). -/
theorem transpose_swap_apply {α : Type} {m n : Nat}
    (h : (⟨2, ![m, n]⟩ : Shape).Transposes [1, 0] ⟨2, ![n, m]⟩) (x : (⟨2, ![m, n]⟩ : Shape).Idx → α)
    (a : Fin n) (b : Fin m) : transpose ⟨2, ![n, m]⟩ [1, 0] x h (ix2 a b) = x (ix2 b a) := by
  refine transpose_apply [1, 0] x h (ix2 a b) (ix2 b a) ?_
  intro c
  match c with
  | ⟨0, _⟩ => rfl
  | ⟨1, _⟩ => rfl

/-- A vector made a one-row matrix reads, in that row, the vector at the column. -/
theorem vec_as_row_apply {α : Type} {n : Nat}
    (h : (⟨1, ![n]⟩ : Shape).BroadcastsInDim ⟨2, ![1, n]⟩ ![1]) (x : (⟨1, ![n]⟩ : Shape).Idx → α)
    (r : Fin 1) (t : Fin n) : broadcastInDim ⟨2, ![1, n]⟩ ![1] h x (ix2 r t) = x (ix1 t) := by
  refine broadcastInDim_apply ![1] h x (ix2 r t) (ix1 t) ?_
  intro a
  match a with
  | ⟨0, _⟩ =>
    show t.val = if n = 1 then 0 else t.val
    split_ifs with hn
    · have := t.isLt; omega
    · rfl

/-- A vector repeated as every row of an m-row matrix reads, at (r, t), the vector at t. -/
theorem vec_rows_apply {α : Type} {m n : Nat}
    (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply h2 _ r t, vec_as_row_apply h1 x 0 t]

/-- The zero scalar repeated over any shape reads zero. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply, constant_apply]
  exact Ideal.ofBits_zero_f32

/-- Two 64-column matrices side by side, read at (r, l): the first on columns below 64, the second from column 64
    on, 64 columns back. -/
theorem side_by_side_apply {n : Nat}
    (h : Shape.Concatenates [(⟨2, ![n, 64]⟩ : Shape), ⟨2, ![n, 64]⟩] ⟨2, ![n, 128]⟩ 1)
    (x y : (⟨2, ![n, 64]⟩ : Shape).Idx → EReal) (r : Fin n) (l : Fin 128) :
    concatenate ⟨2, ![n, 128]⟩ 1 [⟨⟨2, ![n, 64]⟩, x⟩, ⟨⟨2, ![n, 64]⟩, y⟩] h (ix2 r l)
      = Cert.MsgNet.cat64 (fun r l => x (ix2 r l)) (fun r l => y (ix2 r l)) r l := by
  unfold Cert.MsgNet.cat64
  by_cases hl : l.val < 64
  · rw [dif_pos hl]
    refine concatenate_pair_apply_left 1 x y h _ rfl (ix2 r ⟨l.val, hl⟩) ?_
    intro b
    match b with
    | ⟨0, _⟩ => rfl
    | ⟨1, _⟩ => rfl
  · rw [dif_neg hl]
    refine concatenate_pair_apply_right 1 x y h _ rfl rfl (ix2 r ⟨l.val - 64, by omega⟩) ?_ ?_
    · intro b hb
      match b with
      | ⟨0, _⟩ => rfl
      | ⟨1, _⟩ => exact absurd rfl hb
    · show l.val - 64 + 64 = l.val
      omega

/-! ## The stages' pieces at one entry -/

/-- The maximum with zero over an edge-indexed matrix, at an entry. -/
theorem reluE_apply (a : FVec Ideal S1600000x64 .f32) (j : S1600000x64.Idx) : Stages.reluE a j = max (a j) 0 := by
  unfold Stages.reluE
  rw [maximumf_apply, zeros_apply]

/-- The maximum with zero over a node-indexed matrix, at an entry. -/
theorem reluN_apply (a : FVec Ideal S100000x128 .f32) (j : S100000x128.Idx) : Stages.reluN a j = max (a j) 0 := by
  unfold Stages.reluN
  rw [maximumf_apply, zeros_apply]

/-- A 64-vector repeated over the edges reads the vector at the column. -/
theorem rowsE_apply (b : FVec Ideal S64 .f32) (e : Fin 1600000) (k : Fin 64) : Stages.rowsE b (ix2 e k) = b (ix1 k) := by
  unfold Stages.rowsE
  exact vec_rows_apply bcast_S64_S1x64_1 bcast_S1x64_S1600000x64_0_1 b e k

/-- A 128-vector repeated over the nodes reads the vector at the column. -/
theorem rowsN_apply (b : FVec Ideal S128 .f32) (r : Fin 100000) (k : Fin 128) : Stages.rowsN b (ix2 r k) = b (ix1 k) := by
  unfold Stages.rowsN
  exact vec_rows_apply bcast_S128_S1x128_1 bcast_S1x128_S100000x128_0_1 b r k

/-- The gathered rows beside the edge features, at an entry. -/
theorem edgeIn_apply (xs ef : FVec Ideal S1600000x64 .f32) (e : Fin 1600000) (l : Fin 128) :
    concatenate S1600000x128 1 [⟨S1600000x64, xs⟩, ⟨S1600000x64, ef⟩] concatenates_S1600000x64_S1600000x64_S1600000x128_d1 (ix2 e l)
      = Cert.MsgNet.cat64 (fun e l => xs (ix2 e l)) (fun e l => ef (ix2 e l)) e l :=
  side_by_side_apply concatenates_S1600000x64_S1600000x64_S1600000x128_d1 xs ef e l

/-- A node's features beside its aggregated messages, at an entry. -/
theorem nodeIn_apply (x agg : FVec Ideal S100000x64 .f32) (r : Fin 100000) (l : Fin 128) :
    Stages.nodeIn x agg (ix2 r l) = Cert.MsgNet.cat64 (fun r l => x (ix2 r l)) (fun r l => agg (ix2 r l)) r l := by
  unfold Stages.nodeIn
  exact side_by_side_apply concatenates_S100000x64_S100000x64_S100000x128_d1 x agg r l

/-! ## The three affine layers at one entry: row r of the input against row k of the weight, plus the bias at k -/

/-- The first message layer (128 inputs, 64 outputs). -/
theorem affine_m0 (z : FVec Ideal S1600000x128 .f32) (W : FVec Ideal S64x128 .f32) (b : FVec Ideal S64 .f32)
    (e : Fin 1600000) (k : Fin 64) :
    addf (Host.dotGeneral dot_S1600000x128_S128x64_S1600000x64_1_0_0_1_n_n none z
        (transpose S128x64 [1, 0] W transposes_S64x128_S128x64_1_0)) (Stages.rowsE b) (ix2 e k)
      = (∑ l : Fin 128, z (ix2 e l) * W (ix2 k l)) + b (ix1 k) := by
  rw [addf_apply, rowsE_apply]
  congr 1
  refine (dot_rows_cols_apply dot_S1600000x128_S128x64_S1600000x64_1_0_0_1_n_n_wf none z _ e k).trans ?_
  refine Finset.sum_congr rfl fun l _ => ?_
  rw [transpose_swap_apply]

/-- The second message layer (64 inputs, 64 outputs). -/
theorem affine_m1 (z : FVec Ideal S1600000x64 .f32) (W : FVec Ideal S64x64 .f32) (b : FVec Ideal S64 .f32)
    (e : Fin 1600000) (k : Fin 64) :
    addf (Host.dotGeneral dot_S1600000x64_S64x64_S1600000x64_1_0_0_1_n_n none z
        (transpose S64x64 [1, 0] W transposes_S64x64_S64x64_1_0)) (Stages.rowsE b) (ix2 e k)
      = (∑ l : Fin 64, z (ix2 e l) * W (ix2 k l)) + b (ix1 k) := by
  rw [addf_apply, rowsE_apply]
  congr 1
  refine (dot_rows_cols_apply dot_S1600000x64_S64x64_S1600000x64_1_0_0_1_n_n_wf none z _ e k).trans ?_
  refine Finset.sum_congr rfl fun l _ => ?_
  rw [transpose_swap_apply]

/-- Either update layer (128 inputs, 128 outputs). -/
theorem affine_u (z : FVec Ideal S100000x128 .f32) (W : FVec Ideal S128x128 .f32) (b : FVec Ideal S128 .f32)
    (r : Fin 100000) (k : Fin 128) :
    addf (Host.dotGeneral dot_S100000x128_S128x128_S100000x128_1_0_0_1_n_n none z
        (transpose S128x128 [1, 0] W transposes_S128x128_S128x128_1_0)) (Stages.rowsN b) (ix2 r k)
      = (∑ l : Fin 128, z (ix2 r l) * W (ix2 k l)) + b (ix1 k) := by
  rw [addf_apply, rowsN_apply]
  congr 1
  refine (dot_rows_cols_apply dot_S100000x128_S128x128_S100000x128_1_0_0_1_n_n_wf none z _ r k).trans ?_
  refine Finset.sum_congr rfl fun l _ => ?_
  rw [transpose_swap_apply]

/-! ## The two stages as the specification's functions -/

/-- The hidden layer of the messages (first affine layer, then the maximum with zero), at an entry. -/
theorem hiddenE_apply (xs ef : FVec Ideal S1600000x64 .f32) (Wm0 : FVec Ideal S64x128 .f32) (bm0 : FVec Ideal S64 .f32)
    (e : Fin 1600000) (l : Fin 64) :
    Stages.reluE (addf (Host.dotGeneral dot_S1600000x128_S128x64_S1600000x64_1_0_0_1_n_n none
        (concatenate S1600000x128 1 [⟨S1600000x64, xs⟩, ⟨S1600000x64, ef⟩] concatenates_S1600000x64_S1600000x64_S1600000x128_d1)
        (transpose S128x64 [1, 0] Wm0 transposes_S64x128_S128x64_1_0)) (Stages.rowsE bm0)) (ix2 e l)
      = Cert.MsgNet.relu (Cert.MsgNet.lin (Cert.MsgNet.cat64 (fun e l => xs (ix2 e l)) (fun e l => ef (ix2 e l)))
          (fun k l => Wm0 (ix2 k l)) (fun k => bm0 (ix1 k))) e l := by
  rw [reluE_apply, affine_m0]
  refine congrArg (fun s : EReal => max (s + bm0 (ix1 l)) 0) (Finset.sum_congr rfl fun c _ => ?_)
  rw [edgeIn_apply]

/-- The hidden layer of the node update (first affine layer, then the maximum with zero), at an entry. -/
theorem hiddenN_apply (x agg : FVec Ideal S100000x64 .f32) (Wu0 : FVec Ideal S128x128 .f32) (bu0 : FVec Ideal S128 .f32)
    (r : Fin 100000) (l : Fin 128) :
    Stages.reluN (addf (Host.dotGeneral dot_S100000x128_S128x128_S100000x128_1_0_0_1_n_n none (Stages.nodeIn x agg)
        (transpose S128x128 [1, 0] Wu0 transposes_S128x128_S128x128_1_0)) (Stages.rowsN bu0)) (ix2 r l)
      = Cert.MsgNet.relu (Cert.MsgNet.lin (Cert.MsgNet.cat64 (fun r l => x (ix2 r l)) (fun r l => agg (ix2 r l)))
          (fun k l => Wu0 (ix2 k l)) (fun k => bu0 (ix1 k))) r l := by
  rw [reluN_apply, affine_u]
  refine congrArg (fun s : EReal => max (s + bu0 (ix1 l)) 0) (Finset.sum_congr rfl fun c _ => ?_)
  rw [nodeIn_apply]

/-- The reference's edge messages are the specification's msg of the coordinate functions of its arrays. -/
theorem messages_eq (xs ef : FVec Ideal S1600000x64 .f32) (Wm0 : FVec Ideal S64x128 .f32) (bm0 : FVec Ideal S64 .f32)
    (Wm1 : FVec Ideal S64x64 .f32) (bm1 : FVec Ideal S64 .f32) :
    Stages.messages xs ef Wm0 bm0 Wm1 bm1
      = fun i => Cert.MsgNet.msg (fun e l => xs (ix2 e l)) (fun e l => ef (ix2 e l)) (fun k l => Wm0 (ix2 k l))
          (fun k => bm0 (ix1 k)) (fun k l => Wm1 (ix2 k l)) (fun k => bm1 (ix1 k)) (i 0) (i 1) := by
  funext i
  obtain ⟨e, q, rfl⟩ : ∃ (e : Fin 1600000) (q : Fin 64), i = ix2 e q := ⟨i 0, i 1, eq_ix2 i⟩
  unfold Stages.messages
  rw [reluE_apply, affine_m1]
  refine congrArg (fun s : EReal => max (s + bm1 (ix1 q)) 0) (Finset.sum_congr rfl fun l _ => ?_)
  rw [hiddenE_apply]

/-- The reference's node update is the specification's upd of the coordinate functions of its arrays. -/
theorem updated_eq (x agg : FVec Ideal S100000x64 .f32) (Wu0 : FVec Ideal S128x128 .f32) (bu0 : FVec Ideal S128 .f32)
    (Wuo : FVec Ideal S128x128 .f32) (buo : FVec Ideal S128 .f32) :
    Stages.updated (Stages.nodeIn x agg) Wu0 bu0 Wuo buo
      = fun i => Cert.MsgNet.upd (fun r l => x (ix2 r l)) (fun r l => agg (ix2 r l)) (fun k l => Wu0 (ix2 k l))
          (fun k => bu0 (ix1 k)) (fun k l => Wuo (ix2 k l)) (fun k => buo (ix1 k)) (i 0) (i 1) := by
  funext i
  obtain ⟨r, j, rfl⟩ : ∃ (r : Fin 100000) (j : Fin 128), i = ix2 r j := ⟨i 0, i 1, eq_ix2 i⟩
  unfold Stages.updated
  rw [addf_apply, affine_u, nodeIn_apply]
  refine congrArg (fun s : EReal => s + buo (ix1 j)
      + Cert.MsgNet.cat64 (fun r l => x (ix2 r l)) (fun r l => agg (ix2 r l)) r j) (Finset.sum_congr rfl fun l _ => ?_)
  rw [hiddenN_apply]

end Cert.ReferenceIdeal.RefValue

end
-- ==== Proof.RefNorm.lean ====
/-
  The reference program's batch normalisation read index by index at the extended reals.

  The reference sums every column over the 100000 nodes from a zero word, divides by the node count, sums the squared
  deviations from that mean the same way, divides by the node count minus a zero correction (guarded by a test that this
  divisor is positive, which it is), and scales the centred columns by the inverse square root of the variance plus a small
  constant before the per-column scale and shift. Each of these is, coordinate by coordinate, the mean, the biased
  variance and the normalisation stated over coordinate functions.
-/
import proofs.«140201_j79508434583745_2_alg».proof.Proof.RefStages
import proofs.«140201_j79508434583745_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.ReferenceIdeal.RefNorm

open Cert.ReferenceIdeal Cert.ReferenceIdeal.Facts₀ Cert.ReferenceIdeal.Facts
open Idealize.ShloMosaic Idealize.ShloMosaic.ValueIdx

/-! ## The node count -/

/-- The node count's pattern has exponent field 143 and significand field 4411392, so it denotes
    (2²³ + 4411392) · 2⁻⁷ = 100000. -/
theorem nNodes_eq : Cert.MsgNet.nNodes = ((100000 : ℝ) : EReal) := by
  unfold Cert.MsgNet.nNodes
  simp [Ideal.ofBits, Ideal.ieee, -EReal.coe_mul]; norm_num

/-- The node count is positive, so the test "the divisor exceeds zero" answers with the bit one. -/
theorem nNodes_gt_zero : Ideal.cmp .ogt Cert.MsgNet.nNodes 0 = 1#1 := by
  rw [nNodes_eq]
  have h : (0 : EReal) < ((100000 : ℝ) : EReal) := by exact_mod_cast (by norm_num : (0 : ℝ) < 100000)
  unfold Ideal.cmp
  simp [h]

/-- The variance's divisor: the node count minus the integer zero read as a float, which is zero. -/
theorem varDivisor_apply (i : S_.Idx) : Stages.varDivisor i = Cert.MsgNet.nNodes := by
  show Ideal.ofBits .f32 0x47C35000#32 - ((((0#32 : BitVec 32).toInt : ℤ) : ℝ) : EReal) = Cert.MsgNet.nNodes
  unfold Cert.MsgNet.nNodes
  simp

/-! ## Sums over the node axis -/

/-- A host sum over the node axis from the zero word: at column `q`, the sum over the 100000 rows. -/
theorem hostSum_apply (x : FVec Ideal S100000x128 .f32) (q : Fin 128) :
    Host.reduceAdd x (constant (F := Ideal) S_ .f32 0x00000000#32) reducesTo_S100000x128_S128_d0 h_S_ (ix1 q)
      = ∑ r : Fin 100000, x (ix2 r q) := by
  have h' : S100000x128.ReducesTo [0] S128 := reducesTo_S100000x128_S128_d0
  have h : S100000x128.Reduces [0] S128 := ⟨h'.1, Nat.one_pos, h'.2⟩
  rw [hostReduceAdd_apply, Ideal.hostReduceAdd_single h' h, constant_apply, Ideal.ofBits_zero_f32, zero_add]
  refine Finset.sum_congr rfl fun k _ => ?_
  refine congrArg x (funext fun a => Fin.ext ?_)
  match a with
  | ⟨0, _⟩ => rfl
  | ⟨1, _⟩ => rfl

/-! ## The mean -/

theorem colMean_apply (o : FVec Ideal S100000x128 .f32) (q : Fin 128) :
    Stages.colMean o (ix1 q) = Cert.MsgNet.mean (fun r q => o (ix2 r q)) q := by
  unfold Stages.colMean Stages.colSum
  rw [hostDivf_apply, hostSum_apply, broadcastInDim_scalar_apply, constant_apply]
  rfl

/-- The column means are the means of the columns over the node axis. -/
theorem colMean_eq (o : FVec Ideal S100000x128 .f32) :
    Stages.colMean o = fun j => Cert.MsgNet.mean (fun r q => o (ix2 r q)) (j 0) := by
  funext j
  obtain ⟨q, rfl⟩ : ∃ q : Fin 128, j = ix1 q := ⟨j 0, eq_ix1 j⟩
  exact colMean_apply o q

/-! ## A per-column vector laid along every node's row -/

/-- A 128-vector repeated over the nodes reads, at row `r` and column `q`, its entry `q`. -/
theorem rowsN_apply (b : FVec Ideal S128 .f32) (r : Fin 100000) (q : Fin 128) :
    Stages.rowsN b (ix2 r q) = b (ix1 q) := by
  unfold Stages.rowsN
  rw [broadcastInDim_oneRow_apply]
  exact broadcastInDim_apply ![1] bcast_S128_S1x128_1 b (ix2 (0 : Fin 1) q) (ix1 q) (by
    intro a
    match a with
    | ⟨0, _⟩ => rfl)

/-! ## The variance -/

/-- The squared deviation of entry `(r, q)` from its column's mean. -/
theorem sqDev_apply (o : FVec Ideal S100000x128 .f32) (r : Fin 100000) (q : Fin 128) :
    Stages.sqDev o (ix2 r q)
      = (o (ix2 r q) - Cert.MsgNet.mean (fun r q => o (ix2 r q)) q)
        * (o (ix2 r q) - Cert.MsgNet.mean (fun r q => o (ix2 r q)) q) := by
  have hm : broadcastInDim S100000x128 ![0, 1] bcast_S1x128_S100000x128_0_1
      (Host.divf (broadcastInDim S1x128 ![1] bcast_S128_S1x128_1 (Stages.colSum o))
        (broadcastInDim S1x128 ![] bcast_S_S1x128 (constant (F := Ideal) S_ .f32 0x47C35000#32))) (ix2 r q)
      = Cert.MsgNet.mean (fun r q => o (ix2 r q)) q := by
    rw [broadcastInDim_oneRow_apply, hostDivf_apply, broadcastInDim_scalar_apply, constant_apply,
      broadcastInDim_apply ![1] bcast_S128_S1x128_1 (Stages.colSum o) (ix2 (0 : Fin 1) q) (ix1 q) (by
        intro a
        match a with
        | ⟨0, _⟩ => rfl)]
    unfold Stages.colSum
    rw [hostSum_apply]
    rfl
  unfold Stages.sqDev
  rw [mulf_apply, subf_apply, hm]

theorem colVar_apply (o : FVec Ideal S100000x128 .f32) (q : Fin 128) :
    Stages.colVar o (ix1 q) = Cert.MsgNet.var (fun r q => o (ix2 r q)) q := by
  unfold Stages.colVar
  rw [select_apply, broadcastInDim_scalar_apply, cmpf_apply, varDivisor_apply, constant_apply, Ideal.ofBits_zero_f32]
  show Scalar.select (Ideal.cmp .ogt Cert.MsgNet.nNodes 0) _ _ = _
  rw [nNodes_gt_zero, select_one, hostDivf_apply, hostSum_apply, broadcastInDim_scalar_apply, varDivisor_apply]
  unfold Cert.MsgNet.var
  refine congrArg (fun z => Ideal.div z Cert.MsgNet.nNodes) (Finset.sum_congr rfl fun r _ => ?_)
  exact sqDev_apply o r q

/-- The column variances are the biased variances of the columns over the node axis: the divisor is the node count,
    which is positive, so the first branch of the guard is the one taken. -/
theorem colVar_eq (o : FVec Ideal S100000x128 .f32) :
    Stages.colVar o = fun j => Cert.MsgNet.var (fun r q => o (ix2 r q)) (j 0) := by
  funext j
  obtain ⟨q, rfl⟩ : ∃ q : Fin 128, j = ix1 q := ⟨j 0, eq_ix1 j⟩
  exact colVar_apply o q

/-! ## The normalisation -/

/-- The inverse square root of a column's variance plus the offset. -/
theorem invStd_apply (o : FVec Ideal S100000x128 .f32) (q : Fin 128) :
    Host.rsqrt (addf (Stages.colVar o)
        (broadcastInDim S128 ![] bcast_S_S128 (constant (F := Ideal) S_ .f32 0x3727C5AC#32))) (ix1 q)
      = Ideal.rsqrt (Cert.MsgNet.var (fun r q => o (ix2 r q)) q + Cert.MsgNet.eps) := by
  show Ideal.rsqrt (Stages.colVar o (ix1 q)
      + broadcastInDim S128 ![] bcast_S_S128 (constant (F := Ideal) S_ .f32 0x3727C5AC#32) (ix1 q)) = _
  rw [colVar_apply, broadcastInDim_scalar_apply, constant_apply]
  rfl

theorem normalized_apply (o : FVec Ideal S100000x128 .f32) (gamma beta : FVec Ideal S128 .f32)
    (r : Fin 100000) (q : Fin 128) :
    Stages.normalized o gamma beta (ix2 r q)
      = Cert.MsgNet.bn (fun r q => o (ix2 r q)) (fun q => gamma (ix1 q)) (fun q => beta (ix1 q)) r q := by
  unfold Stages.normalized
  rw [addf_apply, mulf_apply, mulf_apply, subf_apply, rowsN_apply, rowsN_apply, rowsN_apply, rowsN_apply,
    colMean_apply, invStd_apply]
  rfl

/-- The reference's normalised result is the batch normalisation of its input's columns with the given per-column
    scale and shift. -/
theorem normalized_eq (o : FVec Ideal S100000x128 .f32) (gamma beta : FVec Ideal S128 .f32) :
    Stages.normalized o gamma beta
      = fun i => Cert.MsgNet.bn (fun r q => o (ix2 r q)) (fun q => gamma (ix1 q)) (fun q => beta (ix1 q)) (i 0) (i 1) := by
  funext i
  obtain ⟨r, q, rfl⟩ : ∃ (r : Fin 100000) (q : Fin 128), i = ix2 r q := ⟨i 0, i 1, eq_ix2 i⟩
  exact normalized_apply o gamma beta r q

end Cert.ReferenceIdeal.RefNorm

end
-- ==== Proof.RefResult.lean ====
/-
  The reference program's whole result as the specification.

  The result is the normalisation of the node update of every node's features beside its aggregated messages, the
  messages being computed from the gathered source rows beside the edge features. Each of the three arithmetic stages
  has been read entry by entry as the specification's function of the coordinate functions of its arrays: the messages
  as msg, the update as upd, the normalisation as bn. Substituting these readings into one another, from the outermost
  stage inwards, gives the result as bn of upd of the aggregated msg. The gather of the source rows and the
  scatter-sum into the destination nodes stay as they are: they are never opened.
-/
import proofs.«140201_j79508434583745_2_alg».proof.Proof.RefStages
import proofs.«140201_j79508434583745_2_alg».proof.Proof.Spec
import proofs.«140201_j79508434583745_2_alg».proof.Proof.RefAffine
import proofs.«140201_j79508434583745_2_alg».proof.Proof.RefNorm
import Idealize.ShloMosaic.Lib.ValueIdx

noncomputable section

namespace Cert.ReferenceIdeal.RefResult

open Cert.ReferenceIdeal Cert.ReferenceIdeal.Facts₀ Cert.ReferenceIdeal.Facts
open Idealize.ShloMosaic Idealize.ShloMosaic.ValueIdx

/-- The reference's result is the batch normalisation of the node update of the node features beside the messages
    summed into their destination nodes, each message the two-layer function of its edge's gathered source row beside
    its edge features. -/
theorem result_eq_spec (x : FVec Ideal S100000x64 .f32) (ef : FVec Ideal S1600000x64 .f32) (ei : IVec S2x1600000 32)
    (Wm0 : FVec Ideal S64x128 .f32) (bm0 : FVec Ideal S64 .f32) (Wm1 : FVec Ideal S64x64 .f32) (bm1 : FVec Ideal S64 .f32)
    (Wu0 : FVec Ideal S128x128 .f32) (bu0 : FVec Ideal S128 .f32) (Wuo : FVec Ideal S128x128 .f32) (buo : FVec Ideal S128 .f32)
    (gamma beta : FVec Ideal S128 .f32) :
    Stages.result x ef ei Wm0 bm0 Wm1 bm1 Wu0 bu0 Wuo buo gamma beta = fun i =>
      Cert.MsgNet.bn
        (Cert.MsgNet.upd (fun r l => x (ix2 r l))
          (fun r l => Stages.aggregated (Stages.dstCol ei) (fun j => Cert.MsgNet.msg (fun e l => Stages.gathered x ei (ix2 e l)) (fun e l => ef (ix2 e l)) (fun k l => Wm0 (ix2 k l)) (fun k => bm0 (ix1 k)) (fun k l => Wm1 (ix2 k l)) (fun k => bm1 (ix1 k)) (j 0) (j 1)) (ix2 r l))
          (fun k l => Wu0 (ix2 k l)) (fun k => bu0 (ix1 k)) (fun k l => Wuo (ix2 k l)) (fun k => buo (ix1 k)))
        (fun q => gamma (ix1 q)) (fun q => beta (ix1 q)) (i 0) (i 1) := by
  unfold Stages.result
  rw [RefNorm.normalized_eq, RefValue.updated_eq, RefValue.messages_eq]

end Cert.ReferenceIdeal.RefResult

end
-- ==== Proof.lean ====
/-
  The kernel program (an edge message layer, a scatter-sum, a node update with residual, and a batch normalisation
  computed by four pipelined kernels with host operations between them) against the reference (the same layer as
  plain host operations).

  Both idealized programs compute, index by index, the specification of Proof/Spec.lean: the node update `upd` of the
  node features beside the scatter-sum of the edge messages `msg`, normalised column by column (`bn`). On the
  kernel side every region's output array is read as one whole-array function of its input arrays (a block is rows
  6400·t … or 5000·t … of the array; a matrix product against transposed weights is a plain sum over the contracted
  axis; a change of float format is the identity at the extended reals), the host operations between the regions are
  read through, and the per-block column sums and per-block sums of squared deviations are added up over the 20 blocks:
  a sum over 100000 rows is the sum over 20 blocks of 5000 rows (commutativity and associativity of addition on the
  extended reals only: no finiteness is needed, so the precondition is never opened). On the reference side the run is
  the straight line of its host operations, its outlined functions inlined, and its stages are read at an index; its
  variance divides by the node count minus a zero correction behind a guard that is always true. The gather and the
  scatter-sum are the same host operations in both programs and are never opened.

  The word-level kernel needs only its generated frame; the ideal pass rewrote nothing, so `preserves` is `True`.
-/
import proofs.«140201_j79508434583745_2_alg».proof.Defs
import proofs.«140201_j79508434583745_2_alg».proof.Proof.Gen.Kernel
import proofs.«140201_j79508434583745_2_alg».proof.Proof.Gen.Kernel.Skeleton
import proofs.«140201_j79508434583745_2_alg».proof.Proof.Gen.Kernel.Launch
import proofs.«140201_j79508434583745_2_alg».proof.Proof.Gen.Kernel.Points
import proofs.«140201_j79508434583745_2_alg».proof.Proof.Gen.Kernel.Frame
import proofs.«140201_j79508434583745_2_alg».proof.Proof.Gen.KernelIdeal
import proofs.«140201_j79508434583745_2_alg».proof.Proof.Gen.KernelIdeal.Skeleton
import proofs.«140201_j79508434583745_2_alg».proof.Proof.Gen.KernelIdeal.Launch
import proofs.«140201_j79508434583745_2_alg».proof.Proof.Gen.KernelIdeal.Points
import proofs.«140201_j79508434583745_2_alg».proof.Proof.Gen.KernelIdeal.Frame
import proofs.«140201_j79508434583745_2_alg».proof.Proof.Gen.ReferenceIdeal
import proofs.«140201_j79508434583745_2_alg».proof.Proof.Gen.Pre_finite_inputs
import proofs.«140201_j79508434583745_2_alg».proof.Proof.KRun
import proofs.«140201_j79508434583745_2_alg».proof.Proof.KChain
import proofs.«140201_j79508434583745_2_alg».proof.Proof.EdgeValue
import proofs.«140201_j79508434583745_2_alg».proof.Proof.NodeValue
import proofs.«140201_j79508434583745_2_alg».proof.Proof.SqsumValue
import proofs.«140201_j79508434583745_2_alg».proof.Proof.NormValue
import proofs.«140201_j79508434583745_2_alg».proof.Proof.RefRun
import proofs.«140201_j79508434583745_2_alg».proof.Proof.RefResult
import proofs.«140201_j79508434583745_2_alg».proof.Proof.HostGlue
import Idealize.ShloMosaic.Adequacy
import Idealize.ShloMosaic.Init

set_option maxRecDepth 16384

noncomputable section

namespace Cert.Proof

open Idealize.ShloMosaic Idealize.SL.Sem Idealize.ShloMosaic.ValueIdx

/-! ## The kernel program's regions, at the contents its run enters them with -/

/-- What the four regions leave in their output arrays: each region's whole-array value, at the buffer contents the
    run enters the region with, placed at the output array's reference. -/
theorem regions (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Chain.Regions m ρ c where
  edge := (Cert.KernelIdeal.Gen.W2_arr m ρ c 6).trans (Cert.KernelIdeal.EdgeValue.edge_final (Cert.KernelIdeal.Gen.V1 m ρ) c)
  node := (Cert.KernelIdeal.Gen.W4_arr m ρ c 6).trans (Cert.KernelIdeal.NodeValue.node_final (Cert.KernelIdeal.Gen.V3 m ρ) c)
  nodesum := (Cert.KernelIdeal.Gen.W4_arr m ρ c 7).trans (Cert.KernelIdeal.NodeValue.nodesum_final (Cert.KernelIdeal.Gen.V3 m ρ) c)
  sqsum := (Cert.KernelIdeal.Gen.W6_arr m ρ c 2).trans (Cert.KernelIdeal.SqsumValue.sqsum_final (Cert.KernelIdeal.Gen.V5 m ρ) c)
  scale := (Cert.KernelIdeal.Gen.W8_arr m ρ c 5).trans (Cert.KernelIdeal.NormValue.scale_final (Cert.KernelIdeal.Gen.V7 m ρ) c)

/-! ## The claims -/

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both programs end with the normalised node update of the launch arrays: the kernel program's chain of regions
    and host stretches on one side, the reference's stages on the other, the gather and the scatter-sum the same
    functions in both. -/
theorem algebraic : Cert.algebraic_KernelIdeal_ReferenceIdeal := by
  intro m ρ m' ρ' _ hagree
  refine ⟨fun c i => Cert.MsgNet.bn (Cert.KernelIdeal.Chain.U m ρ c) (fun q => (m ((c.tc : Thread Cert.KernelIdeal.nD Cert.KernelIdeal.τ).loc Cert.KernelIdeal.main_arg12)) (ix1 q)) (fun q => (m ((c.tc : Thread Cert.KernelIdeal.nD Cert.KernelIdeal.τ).loc Cert.KernelIdeal.main_arg13)) (ix1 q)) (i 0) (i 1), ?_, ?_⟩
  · exact (θ_run Cert.KernelIdeal.defs _ _).mono (fun r h c => ⟨(h c).1.trans (Cert.KernelIdeal.Chain.result (regions m ρ c)), (h c).2⟩)
      (Cert.KernelIdeal.Named.run_named m ρ)
  · refine (θ_run Cert.ReferenceIdeal.defs _ _).mono (fun r h c => ⟨(h c).1.trans ?_, (h c).2⟩) (Cert.ReferenceIdeal.RefRun.run m' ρ')
    rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2,
      Cert.ReferenceIdeal.RefResult.result_eq_spec]
    beta_reduce
    unfold Cert.KernelIdeal.Chain.U
    rw [Cert.KernelIdeal.Chain.agg_eq (regions m ρ c), Cert.HostGlue.aggregated_same, Cert.HostGlue.gathered_same]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
